-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x16384 : Shape := ⟨3, ![32, 16, 16384]⟩
abbrev S63x136 : Shape := ⟨2, ![63, 136]⟩
abbrev S63 : Shape := ⟨1, ![63]⟩
abbrev S_ : Shape := ⟨0, ![]⟩

class Facts : Prop where
  bcast_S_S32x16x16384 : S_.BroadcastsInDim S32x16x16384 (![] : Fin 0 → Fin S32x16x16384.rank)
  reducesTo_S32x16x16384_S_d0_1_2 : S32x16x16384.ReducesTo [0, 1, 2] S_
  h_S_ : 0 < S_.numel
  bcast_S_S63x136 : S_.BroadcastsInDim S63x136 (![] : Fin 0 → Fin S63x136.rank)
  reducesTo_S63x136_S_d0_1 : S63x136.ReducesTo [0, 1] S_
  bcast_S_S63 : S_.BroadcastsInDim S63 (![] : Fin 0 → Fin S63.rank)
  reducesTo_S63_S_d0 : S63.ReducesTo [0] S_

variable [Facts]

def fn {F : FTy → Type} [FloatOps F] (main_arg0 : FVec F S32x16x16384 .f32) (main_arg1 : FVec F S63x136 .f32) (main_arg2 : FVec F S63 .f32) : IVec S_ 1 :=
  let main_v0 : FVec F S32x16x16384 .f32 := Host.absf main_arg0
  let main_cst : FVec F S_ .f32 := constant S_ .f32 0x7F800000#32
  let main_v1 : FVec F S32x16x16384 .f32 := broadcastInDim S32x16x16384 ![] bcast_S_S32x16x16384 main_cst
  let main_v2 : IVec S32x16x16384 1 := cmpf .olt main_v0 main_v1
  let main_c : IVec S_ 1 := constantI S_ 1 1#1
  let main_v3 : IVec S_ 1 := (fun x v => Host.reduce IntOp.andi x v reducesTo_S32x16x16384_S_d0_1_2 h_S_) main_v2 main_c
  let main_v4 : FVec F S63x136 .f32 := Host.absf main_arg1
  let main_cst_0 : FVec F S_ .f32 := constant S_ .f32 0x7F800000#32
  let main_v5 : FVec F S63x136 .f32 := broadcastInDim S63x136 ![] bcast_S_S63x136 main_cst_0
  let main_v6 : IVec S63x136 1 := cmpf .olt main_v4 main_v5
  let main_c_1 : IVec S_ 1 := constantI S_ 1 1#1
  let main_v7 : IVec S_ 1 := (fun x v => Host.reduce IntOp.andi x v reducesTo_S63x136_S_d0_1 h_S_) main_v6 main_c_1
  let main_v8 : IVec S_ 1 := andi main_v3 main_v7
  let main_v9 : FVec F S63 .f32 := Host.absf main_arg2
  let main_cst_2 : FVec F S_ .f32 := constant S_ .f32 0x7F800000#32
  let main_v10 : FVec F S63 .f32 := broadcastInDim S63 ![] bcast_S_S63 main_cst_2
  let main_v11 : IVec S63 1 := cmpf .olt main_v9 main_v10
  let main_c_3 : IVec S_ 1 := constantI S_ 1 1#1
  let main_v12 : IVec S_ 1 := (fun x v => Host.reduce IntOp.andi x v reducesTo_S63_S_d0 h_S_) main_v11 main_c_3
  let main_v13 : IVec S_ 1 := andi main_v8 main_v12
  main_v13
-- ==== Kernel.lean ====
abbrev S32x16x16384 : Shape := ⟨3, ![32, 16, 16384]⟩
abbrev S63x136 : Shape := ⟨2, ![63, 136]⟩
abbrev S63 : Shape := ⟨1, ![63]⟩
abbrev S63x1 : Shape := ⟨2, ![63, 1]⟩
abbrev S32x64x16384 : Shape := ⟨3, ![32, 64, 16384]⟩
abbrev S1x16x16384 : Shape := ⟨3, ![1, 16, 16384]⟩
abbrev S1x64x16384 : Shape := ⟨3, ![1, 64, 16384]⟩
abbrev S16x16384 : Shape := ⟨2, ![16, 16384]⟩
abbrev S15x16384 : Shape := ⟨2, ![15, 16384]⟩
abbrev S15x4 : Shape := ⟨2, ![15, 4]⟩
abbrev S15x16392 : Shape := ⟨2, ![15, 16392]⟩
abbrev S16392 : Shape := ⟨1, ![16392]⟩
abbrev S1x16392 : Shape := ⟨2, ![1, 16392]⟩
abbrev S1x16384 : Shape := ⟨2, ![1, 16384]⟩
abbrev S135x16384 : Shape := ⟨2, ![135, 16384]⟩
abbrev S63x135 : Shape := ⟨2, ![63, 135]⟩
abbrev S63x16384 : Shape := ⟨2, ![63, 16384]⟩
abbrev S16384 : Shape := ⟨1, ![16384]⟩
abbrev S64x16384 : Shape := ⟨2, ![64, 16384]⟩

abbrev nBuf : Space → Nat
  | .hbm => 5
  | .vmem => 6
  | .smem => 0
  | _ => 0

abbrev bufTy : (tb : Table) → Fin (tcTables nBuf tb) → BufTy
  | .hbm, ⟨0, _⟩ => ⟨S32x16x16384, .f32⟩
  | .hbm, ⟨1, _⟩ => ⟨S63x136, .f32⟩
  | .hbm, ⟨2, _⟩ => ⟨S63, .f32⟩
  | .hbm, ⟨3, _⟩ => ⟨S63x1, .f32⟩
  | .hbm, ⟨4, _⟩ => ⟨S32x64x16384, .f32⟩
  | .local _ .vmem, ⟨0, _⟩ => ⟨S1x16x16384, .f32⟩
  | .local _ .vmem, ⟨1, _⟩ => ⟨S1x16x16384, .f32⟩
  | .local _ .vmem, ⟨2, _⟩ => ⟨S63x136, .f32⟩
  | .local _ .vmem, ⟨3, _⟩ => ⟨S63x1, .f32⟩
  | .local _ .vmem, ⟨4, _⟩ => ⟨S1x64x16384, .f32⟩
  | .local _ .vmem, ⟨5, _⟩ => ⟨S1x64x16384, .f32⟩
  | _, _ => ⟨S32x16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S63x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S63_S63x1 : S63.ShapeCasts S63x1
  inb_S1x16x16384_S1x16x16384_0_0_0 : ∀ a, (![0, 0, 0] : Fin 3 → Nat) a + S1x16x16384.size a ≤ S1x16x16384.size a
  h_S1x16x16384 : 0 < S1x16x16384.numel
  shapeCasts_S1x16x16384_S16x16384 : S1x16x16384.ShapeCasts S16x16384
  slices_S16x16384_o1_0_S15x16384 : S16x16384.Slices ![1, 0] S15x16384
  concatenates_S15x4_S15x16384_S15x4_S15x16392_d1 : Shape.Concatenates [S15x4, S15x16384, S15x4] S15x16392 1
  reduces_S15x16392_S16392 : S15x16392.Reduces [0] S16392
  shapeCasts_S16392_S1x16392 : S16392.ShapeCasts S1x16392
  slices_S1x16392_o0_0_S1x16384 : S1x16392.Slices ![0, 0] S1x16384
  slices_S1x16392_o0_1_S1x16384 : S1x16392.Slices ![0, 1] S1x16384
  slices_S1x16392_o0_2_S1x16384 : S1x16392.Slices ![0, 2] S1x16384
  slices_S1x16392_o0_3_S1x16384 : S1x16392.Slices ![0, 3] S1x16384
  slices_S1x16392_o0_4_S1x16384 : S1x16392.Slices ![0, 4] S1x16384
  slices_S1x16392_o0_5_S1x16384 : S1x16392.Slices ![0, 5] S1x16384
  slices_S1x16392_o0_6_S1x16384 : S1x16392.Slices ![0, 6] S1x16384
  slices_S1x16392_o0_7_S1x16384 : S1x16392.Slices ![0, 7] S1x16384
  slices_S1x16392_o0_8_S1x16384 : S1x16392.Slices ![0, 8] S1x16384
  slices_S15x16392_o0_0_S15x16384 : S15x16392.Slices ![0, 0] S15x16384
  slices_S15x16392_o0_1_S15x16384 : S15x16392.Slices ![0, 1] S15x16384
  slices_S15x16392_o0_2_S15x16384 : S15x16392.Slices ![0, 2] S15x16384
  slices_S15x16392_o0_3_S15x16384 : S15x16392.Slices ![0, 3] S15x16384
  slices_S15x16392_o0_4_S15x16384 : S15x16392.Slices ![0, 4] S15x16384
  slices_S15x16392_o0_5_S15x16384 : S15x16392.Slices ![0, 5] S15x16384
  slices_S15x16392_o0_6_S15x16384 : S15x16392.Slices ![0, 6] S15x16384
  slices_S15x16392_o0_7_S15x16384 : S15x16392.Slices ![0, 7] S15x16384
  slices_S15x16392_o0_8_S15x16384 : S15x16392.Slices ![0, 8] S15x16384
  concatenates_S15x16384_S15x16384_S15x16384_S15x16384_S15x16384_S15x16384_S15x16384_S15x16384_S15x16384_S135x16384_d0 : Shape.Concatenates [S15x16384, S15x16384, S15x16384, S15x16384, S15x16384, S15x16384, S15x16384, S15x16384, S15x16384] S135x16384 0
  inb_S63x136_S63x1_0_0 : ∀ a, (![0, 0] : Fin 2 → Nat) a + S63x1.size a ≤ S63x136.size a
  h_S63x1 : 0 < S63x1.numel
  inb_S63x136_S63x135_0_1 : ∀ a, (![0, 1] : Fin 2 → Nat) a + S63x135.size a ≤ S63x136.size a
  h_S63x135 : 0 < S63x135.numel
  broadcasts_S63x1_S63x16384 : S63x1.Broadcasts S63x16384
  broadcasts_S1x16384_S63x16384 : S1x16384.Broadcasts S63x16384
  inb_S63x1_S63x1_0_0 : ∀ a, (![0, 0] : Fin 2 → Nat) a + S63x1.size a ≤ S63x1.size a
  shapeCasts_S63x1_S63x1 : S63x1.ShapeCasts S63x1
  reduces_S63x16384_S16384 : S63x16384.Reduces [0] S16384
  shapeCasts_S16384_S1x16384 : S16384.ShapeCasts S1x16384
  concatenates_S1x16384_S63x16384_S64x16384_d0 : Shape.Concatenates [S1x16384, S63x16384] S64x16384 0
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  dot_S63x135_S135x16384_S63x16384_1_0_0_1_n_n_wf : DotDims.WF S63x135 S135x16384 S63x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x16384.size a ≤ S32x16x16384.size a
  hwx0_0 : ∀ i : grid0.Coords, EltTy.bits .f32 = 32 ∨ (Rect.block (s := S32x16x16384) S1x16x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x136.size a ≤ S63x136.size a
  hwx0_1 : ∀ i : grid0.Coords, EltTy.bits .f32 = 32 ∨ (Rect.block (s := S63x136) S63x136.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x1.size a ≤ S63x1.size a
  hwx0_2 : ∀ i : grid0.Coords, EltTy.bits .f32 = 32 ∨ (Rect.block (s := S63x1) S63x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x16384.size a ≤ S32x64x16384.size a
  hwx0_3 : ∀ i : grid0.Coords, EltTy.bits .f32 = 32 ∨ (Rect.block (s := S32x64x16384) S1x64x16384.size (cc0_transform_3 i) (hinb0_3 i)).WholeWords (EltTy.packing .f32)

variable [Facts₀]

def dot_S63x135_S135x16384_S63x16384_1_0_0_1_n_n : DotDims S63x135 S135x16384 S63x16384 where
  lhsContracting := [1]
  rhsContracting := [0]
  lhsNonContracting := [0]
  rhsNonContracting := [1]
  lhsBatch := []
  rhsBatch := []
  wf := dot_S63x135_S135x16384_S63x16384_1_0_0_1_n_n_wf

abbrev win0_0 : Pipeline.Window sig grid0 :=
  Pipeline.Window.ofSpec (Memref.whole main_arg0) S1x16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S63x136.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S63x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x16x16384 : Shape := ⟨3, ![32, 16, 16384]⟩
abbrev S63x136 : Shape := ⟨2, ![63, 136]⟩
abbrev S63 : Shape := ⟨1, ![63]⟩
abbrev S_ : Shape := ⟨0, ![]⟩
abbrev S32x1x4 : Shape := ⟨3, ![32, 1, 4]⟩
abbrev S32x15x4 : Shape := ⟨3, ![32, 15, 4]⟩
abbrev S32x16x4 : Shape := ⟨3, ![32, 16, 4]⟩
abbrev S32x16x16392 : Shape := ⟨3, ![32, 16, 16392]⟩
abbrev S16384 : Shape := ⟨1, ![16384]⟩
abbrev S16384x1 : Shape := ⟨2, ![16384, 1]⟩
abbrev S9 : Shape := ⟨1, ![9]⟩
abbrev S1x9 : Shape := ⟨2, ![1, 9]⟩
abbrev S16384x9 : Shape := ⟨2, ![16384, 9]⟩
abbrev S16384x9x1 : Shape := ⟨3, ![16384, 9, 1]⟩
abbrev S32x16x16384x9 : Shape := ⟨4, ![32, 16, 16384, 9]⟩
abbrev S32x16384x9x16 : Shape := ⟨4, ![32, 16384, 9, 16]⟩
abbrev S32x16384x9x15 : Shape := ⟨4, ![32, 16384, 9, 15]⟩
abbrev S32x16384x135 : Shape := ⟨3, ![32, 16384, 135]⟩
abbrev S32x16384 : Shape := ⟨2, ![32, 16384]⟩
abbrev S32x16384x1 : Shape := ⟨3, ![32, 16384, 1]⟩
abbrev S32x16384x136 : Shape := ⟨3, ![32, 16384, 136]⟩
abbrev S32x16384x63 : Shape := ⟨3, ![32, 16384, 63]⟩
abbrev S1x1x63 : Shape := ⟨3, ![1, 1, 63]⟩
abbrev S32x16384x64 : Shape := ⟨3, ![32, 16384, 64]⟩
abbrev S32x64x16384 : Shape := ⟨3, ![32, 64, 16384]⟩

abbrev nBuf : Space → Nat
  | .hbm => 57
  | .vmem => 0
  | .smem => 0
  | _ => 0

abbrev bufTy : (tb : Table) → Fin (tcTables nBuf tb) → BufTy
  | .hbm, ⟨0, _⟩ => ⟨S32x16x16384, .f32⟩
  | .hbm, ⟨1, _⟩ => ⟨S63x136, .f32⟩
  | .hbm, ⟨2, _⟩ => ⟨S63, .f32⟩
  | .hbm, ⟨3, _⟩ => ⟨S_, .f32⟩
  | .hbm, ⟨4, _⟩ => ⟨S32x1x4, .f32⟩
  | .hbm, ⟨5, _⟩ => ⟨S_, .f32⟩
  | .hbm, ⟨6, _⟩ => ⟨S32x15x4, .f32⟩
  | .hbm, ⟨7, _⟩ => ⟨S32x16x4, .f32⟩
  | .hbm, ⟨8, _⟩ => ⟨S32x16x16392, .f32⟩
  | .hbm, ⟨9, _⟩ => ⟨S16384, .i32⟩
  | .hbm, ⟨10, _⟩ => ⟨S16384x1, .i32⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S9, .i32⟩
  | .hbm, ⟨15, _⟩ => ⟨S1x9, .i32⟩
  | .hbm, ⟨16, _⟩ => ⟨S16384x9, .i32⟩
  | .hbm, ⟨17, _⟩ => ⟨S16384x9, .i32⟩
  | .hbm, ⟨18, _⟩ => ⟨S16384x9, .i32⟩
  | .hbm, ⟨19, _⟩ => ⟨S_, .i32⟩
  | .hbm, ⟨20, _⟩ => ⟨S16384x9, .i32⟩
  | .hbm, ⟨21, _⟩ => ⟨S16384x9, .i1⟩
  | .hbm, ⟨22, _⟩ => ⟨S_, .i32⟩
  | .hbm, ⟨23, _⟩ => ⟨S16384x9, .i32⟩
  | .hbm, ⟨24, _⟩ => ⟨S16384x9, .i32⟩
  | .hbm, ⟨25, _⟩ => ⟨S16384x9, .i32⟩
  | .hbm, ⟨26, _⟩ => ⟨S16384x9x1, .i32⟩
  | .hbm, ⟨27, _⟩ => ⟨S32x16x16384x9, .f32⟩
  | .hbm, ⟨28, _⟩ => ⟨S32x16384x9x16, .f32⟩
  | .hbm, ⟨29, _⟩ => ⟨S32x16384x9x15, .f32⟩
  | .hbm, ⟨30, _⟩ => ⟨S32x16384x135, .f32⟩
  | .hbm, ⟨31, _⟩ => ⟨S32x16384x135, .f32⟩
  | .hbm, ⟨32, _⟩ => ⟨S_, .f32⟩
  | .hbm, ⟨33, _⟩ => ⟨S32x16384, .f32⟩
  | .hbm, ⟨34, _⟩ => ⟨S32x16384x1, .f32⟩
  | .hbm, ⟨35, _⟩ => ⟨S_, .f32⟩
  | .hbm, ⟨36, _⟩ => ⟨S32x16384x1, .f32⟩
  | .hbm, ⟨37, _⟩ => ⟨S32x16384x1, .f32⟩
  | .hbm, ⟨38, _⟩ => ⟨S32x16384x1, .f32⟩
  | .hbm, ⟨39, _⟩ => ⟨S32x16384x136, .f32⟩
  | .hbm, ⟨40, _⟩ => ⟨S32x16384x63, .f32⟩
  | .hbm, ⟨41, _⟩ => ⟨S1x1x63, .f32⟩
  | .hbm, ⟨42, _⟩ => ⟨S32x16384x63, .f32⟩
  | .hbm, ⟨43, _⟩ => ⟨S32x16384x63, .f32⟩
  | .hbm, ⟨44, _⟩ => ⟨S_, .f32⟩
  | .hbm, ⟨45, _⟩ => ⟨S32x16384x63, .f32⟩
  | .hbm, ⟨46, _⟩ => ⟨S32x16384x63, .f32⟩
  | .hbm, ⟨47, _⟩ => ⟨S32x16384x63, .f32⟩
  | .hbm, ⟨48, _⟩ => ⟨S_, .f32⟩
  | .hbm, ⟨49, _⟩ => ⟨S32x16384, .f32⟩
  | .hbm, ⟨50, _⟩ => ⟨S32x16384x1, .f32⟩
  | .hbm, ⟨51, _⟩ => ⟨S_, .f32⟩
  | .hbm, ⟨52, _⟩ => ⟨S32x16384x1, .f32⟩
  | .hbm, ⟨53, _⟩ => ⟨S32x16384x1, .f32⟩
  | .hbm, ⟨54, _⟩ => ⟨S32x16384x1, .f32⟩
  | .hbm, ⟨55, _⟩ => ⟨S32x16384x64, .f32⟩
  | .hbm, ⟨56, _⟩ => ⟨S32x64x16384, .f32⟩
  | _, _ => ⟨S32x16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  bcast_S_S32x1x4 : S_.BroadcastsInDim S32x1x4 (![] : Fin 0 → Fin S32x1x4.rank)
  bcast_S_S32x15x4 : S_.BroadcastsInDim S32x15x4 (![] : Fin 0 → Fin S32x15x4.rank)
  concatenates_S32x1x4_S32x15x4_S32x16x4_d1 : Shape.Concatenates [S32x1x4, S32x15x4] S32x16x4 1
  concatenates_S32x16x4_S32x16x16384_S32x16x4_S32x16x16392_d2 : Shape.Concatenates [S32x16x4, S32x16x16384, S32x16x4] S32x16x16392 2
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S9_S1x9_1 : S9.BroadcastsInDim S1x9 (![1] : Fin 1 → Fin S1x9.rank)
  bcast_S16384x1_S16384x9_0_1 : S16384x1.BroadcastsInDim S16384x9 (![0, 1] : Fin 2 → Fin S16384x9.rank)
  bcast_S1x9_S16384x9_0_1 : S1x9.BroadcastsInDim S16384x9 (![0, 1] : Fin 2 → Fin S16384x9.rank)
  bcast_S_S16384x9 : S_.BroadcastsInDim S16384x9 (![] : Fin 0 → Fin S16384x9.rank)
  bcast_S16384x9_S16384x9x1_0_1 : S16384x9.BroadcastsInDim S16384x9x1 (![0, 1] : Fin 2 → Fin S16384x9x1.rank)
  transposes_S32x16x16384x9_S32x16384x9x16_0_2_3_1 : S32x16x16384x9.Transposes [0, 2, 3, 1] S32x16384x9x16
  slices_S32x16384x9x16_S32x16384x9x15_0_0_0_1 : S32x16384x9x16.Slices ![0, 0, 0, 1] S32x16384x9x15
  shapeCasts_S32x16384x9x15_S32x16384x135 : S32x16384x9x15.ShapeCasts S32x16384x135
  reducesTo_S32x16384x135_S32x16384_d2 : S32x16384x135.ReducesTo [2] S32x16384
  h_S_ : 0 < S_.numel
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  concatenates_S32x16384x1_S32x16384x135_S32x16384x136_d2 : Shape.Concatenates [S32x16384x1, S32x16384x135] S32x16384x136 2
  bcast_S63_S1x1x63_2 : S63.BroadcastsInDim S1x1x63 (![2] : Fin 1 → Fin S1x1x63.rank)
  bcast_S1x1x63_S32x16384x63_0_1_2 : S1x1x63.BroadcastsInDim S32x16384x63 (![0, 1, 2] : Fin 3 → Fin S32x16384x63.rank)
  bcast_S_S32x16384x63 : S_.BroadcastsInDim S32x16384x63 (![] : Fin 0 → Fin S32x16384x63.rank)
  reducesTo_S32x16384x63_S32x16384_d2 : S32x16384x63.ReducesTo [2] S32x16384
  concatenates_S32x16384x1_S32x16384x63_S32x16384x64_d2 : Shape.Concatenates [S32x16384x1, S32x16384x63] S32x16384x64 2
  transposes_S32x16384x64_S32x64x16384_0_2_1 : S32x16384x64.Transposes [0, 2, 1] S32x64x16384
  gather_S32x16x16392_S16384x9x1_S32x16x16384x9_01_2_n_n_2_2_32161_wf : GatherDims.WF S32x16x16392 S16384x9x1 S32x16x16384x9 [0, 1] [2] [] [2] [] 2 ![32, 16, 1]
  dot_S32x16384x136_S63x136_S32x16384x63_2_1_01_0_n_n_wf : DotDims.WF S32x16384x136 S63x136 S32x16384x63 [2] [1] [0, 1] [0] [] []

variable [Facts₀]

def gather_S32x16x16392_S16384x9x1_S32x16x16384x9_01_2_n_n_2_2_32161 : GatherDims S32x16x16392 S16384x9x1 S32x16x16384x9 where
  offsetDims := [0, 1]
  collapsedSliceDims := [2]
  operandBatchingDims := []
  startIndicesBatchingDims := []
  startIndexMap := [2]
  indexVectorDim := 2
  sliceSizes := ![32, 16, 1]
  wf := gather_S32x16x16392_S16384x9x1_S32x16x16384x9_01_2_n_n_2_2_32161_wf
def dot_S32x16384x136_S63x136_S32x16384x63_2_1_01_0_n_n : DotDims S32x16384x136 S63x136 S32x16384x63 where
  lhsContracting := [2]
  rhsContracting := [1]
  lhsNonContracting := [0, 1]
  rhsNonContracting := [0]
  lhsBatch := []
  rhsBatch := []
  wf := dot_S32x16384x136_S63x136_S32x16384x63_2_1_01_0_n_n_wf

class Facts : Prop extends Facts₀ where

variable [Facts]
-- ==== Proof.Spec.lean ====
/-
  The layer both programs compute, as ONE function of the three argument arrays, index by index, over the extended reals.

  The input `x : [32, 16, 16384]` holds, per batch `t` and position `l`, a point of the hyperboloid: channel 0 is its time
  coordinate, channels 1..15 its fifteen space coordinates. The layer slides a window of nine positions over the space
  coordinates (padded by four zeros on either side), so that output position `l` sees the 135 numbers
  `tap t l k = space (k % 15) at padded position (l + k / 15)`, `k < 135` (tap-major, channel-minor). From them:

    * the window's own time coordinate `timeIn = sqrt (1 + sum_k tap_k ^ 2)`;
    * 63 hidden units `hidden o = max (timeIn * W[o, 0] + sum_k tap_k * W[o, k + 1] + b[o]) 0`;
    * the output's time coordinate `timeOut = sqrt (1 + sum_o hidden_o ^ 2)`;

  and the result `[32, 64, 16384]` has `timeOut` in row 0 and `hidden o` in row `o + 1`. The input's own time channel is
  never read. The float constant one is kept as its word (both programs spell the same word); zero is the extended real 0.
-/
import Idealize.ShloMosaic.PureOps.Ideal
import Idealize.ShloMosaic.PureOps.Ideal.Laws
import Idealize.ShloMosaic.Lib.ValueIdx

noncomputable section

open scoped BigOperators

namespace Cert.LorentzLayer

open Idealize.ShloMosaic Idealize.ShloMosaic.ValueIdx

/-- The float constant `1.0`, as both programs spell it. -/
abbrev one : EReal := Ideal.ofBits .f32 0x3F800000#32

/-- Space coordinate `c` (of fifteen) of batch `t` at PADDED position `p` (of 16392): zero in the two margins of width
    four, the input's channel `c + 1` at position `p - 4` between them; zero also outside those ranges. -/
def padded (x : (⟨3, ![32, 16, 16384]⟩ : Shape).Idx → EReal) (t : Fin 32) (c p : Nat) : EReal :=
  if h : c < 15 ∧ 4 ≤ p ∧ p < 16388 then x (ix3 t ⟨c + 1, by omega⟩ ⟨p - 4, by omega⟩) else 0

/-- In a margin the padded array is zero. -/
theorem padded_margin (x : (⟨3, ![32, 16, 16384]⟩ : Shape).Idx → EReal) (t : Fin 32) (c p : Nat)
    (h : p < 4 ∨ 16388 ≤ p) : padded x t c p = 0 := by
  unfold padded; rw [dif_neg (by omega)]

/-- Between the margins it is the input, one channel up and four positions back. -/
theorem padded_inside (x : (⟨3, ![32, 16, 16384]⟩ : Shape).Idx → EReal) (t : Fin 32) (c p : Nat)
    (hc : c < 15) (h4 : 4 ≤ p) (hp : p < 16388) (r : Fin 16) (q : Fin 16384) (hr : r.val = c + 1) (hq : q.val = p - 4) :
    padded x t c p = x (ix3 t r q) := by
  unfold padded; rw [dif_pos ⟨hc, h4, hp⟩]
  exact congrArg x (by rw [show r = ⟨c + 1, by omega⟩ from Fin.ext hr, show q = ⟨p - 4, by omega⟩ from Fin.ext hq])

/-- Entry `k` of the window at position `l`: tap `k / 15`, channel `k % 15`. -/
def tap (x : (⟨3, ![32, 16, 16384]⟩ : Shape).Idx → EReal) (t : Fin 32) (l : Fin 16384) (k : Fin 135) : EReal :=
  padded x t (k.val % 15) (l.val + k.val / 15)

/-- The window's time coordinate. -/
def timeIn (x : (⟨3, ![32, 16, 16384]⟩ : Shape).Idx → EReal) (t : Fin 32) (l : Fin 16384) : EReal :=
  Ideal.sqrt (one + ∑ k : Fin 135, tap x t l k * tap x t l k)

/-- Hidden unit `o`: the affine map of the window's point, clipped below at zero. -/
def hidden (x : (⟨3, ![32, 16, 16384]⟩ : Shape).Idx → EReal) (W : (⟨2, ![63, 136]⟩ : Shape).Idx → EReal)
    (b : (⟨1, ![63]⟩ : Shape).Idx → EReal) (t : Fin 32) (l : Fin 16384) (o : Fin 63) : EReal :=
  max (timeIn x t l * W (ix2 o (0 : Fin 136)) + ∑ k : Fin 135, tap x t l k * W (ix2 o (⟨k.val + 1, by omega⟩ : Fin 136))
    + b (ix1 o)) 0

/-- The output point's time coordinate. -/
def timeOut (x : (⟨3, ![32, 16, 16384]⟩ : Shape).Idx → EReal) (W : (⟨2, ![63, 136]⟩ : Shape).Idx → EReal)
    (b : (⟨1, ![63]⟩ : Shape).Idx → EReal) (t : Fin 32) (l : Fin 16384) : EReal :=
  Ideal.sqrt (one + ∑ o : Fin 63, hidden x W b t l o * hidden x W b t l o)

/-- THE LAYER at `(t, r, l)`: the time coordinate in row 0, hidden unit `r - 1` in row `r`. -/
def layer (x : (⟨3, ![32, 16, 16384]⟩ : Shape).Idx → EReal) (W : (⟨2, ![63, 136]⟩ : Shape).Idx → EReal)
    (b : (⟨1, ![63]⟩ : Shape).Idx → EReal) (t : Fin 32) (r : Fin 64) (l : Fin 16384) : EReal :=
  if h : r.val = 0 then timeOut x W b t l else hidden x W b t l ⟨r.val - 1, by omega⟩

/-- The same as an array. -/
def G (x : (⟨3, ![32, 16, 16384]⟩ : Shape).Idx → EReal) (W : (⟨2, ![63, 136]⟩ : Shape).Idx → EReal)
    (b : (⟨1, ![63]⟩ : Shape).Idx → EReal) : (⟨3, ![32, 64, 16384]⟩ : Shape).Idx → EReal :=
  fun i => layer x W b (i 0) (i 1) (i 2)

/-! ## One sum of 135 terms is nine sums of fifteen, added left to right from zero -/

/-- A sum over the 135 window entries, each a function of its tap `k / 15` and its channel `k % 15`, is the nine
    per-tap sums over the fifteen channels added up one after the other, starting from zero — the order in which a
    running total over the taps is formed. Only commutativity and associativity of `+`: it holds at infinities. -/
theorem sum_taps (g : Nat → Nat → EReal) :
    ∑ k : Fin 135, g (k.val / 15) (k.val % 15)
      = 0 + (∑ c : Fin 15, g 0 c.val) + (∑ c : Fin 15, g 1 c.val) + (∑ c : Fin 15, g 2 c.val) + (∑ c : Fin 15, g 3 c.val)
        + (∑ c : Fin 15, g 4 c.val) + (∑ c : Fin 15, g 5 c.val) + (∑ c : Fin 15, g 6 c.val) + (∑ c : Fin 15, g 7 c.val)
        + (∑ c : Fin 15, g 8 c.val) := by
  have e : ∑ k : Fin 135, g (k.val / 15) (k.val % 15) = ∑ j : Fin 9, ∑ c : Fin 15, g j.val c.val := by
    rw [← Equiv.sum_comp (finProdFinEquiv (m := 9) (n := 15)) (fun k : Fin (9 * 15) => g (k.val / 15) (k.val % 15)),
      Fintype.sum_prod_type]
    refine Finset.sum_congr rfl fun j _ => Finset.sum_congr rfl fun c _ => ?_
    have hc : c.val < 15 := c.isLt
    show g ((c.val + 15 * j.val) / 15) ((c.val + 15 * j.val) % 15) = g j.val c.val
    rw [show (c.val + 15 * j.val) / 15 = j.val by omega, show (c.val + 15 * j.val) % 15 = c.val by omega]
  rw [e, Fin.sum_univ_eq_sum_range (fun j => ∑ c : Fin 15, g j c.val) 9]
  simp only [Finset.sum_range_succ, Finset.sum_range_zero]

/-! ## The defining equations, stated once -/

/-- The defining equations of this module's functions, brought into being here, so that every module that opens one of these
    definitions uses this one copy of its equation. -/
theorem definitions_realized : True := by
  have := @padded.eq_1; have := @tap.eq_1; have := @timeIn.eq_1; have := @Cert.LorentzLayer.hidden.eq_1
  have := @timeOut.eq_1; have := @layer.eq_1; have := @G.eq_1
  have := @padded.eq_def; have := @tap.eq_def; have := @timeIn.eq_def; have := @Cert.LorentzLayer.hidden.eq_def
  have := @timeOut.eq_def; have := @layer.eq_def; have := @G.eq_def
  trivial

end Cert.LorentzLayer

end
-- ==== Proof.KernelPad.lean ====
/-
  One batch's block of the input, `[1, 16, 16384]`, as the body first re-lays it: the leading unit axis dropped, the time
  channel (row 0) cut away, and the fifteen space rows padded by four zero columns on either side, `[15, 16392]`. Read at
  row `c` and padded column `p` this is zero in the margins and the block's row `c + 1` at column `p - 4` between them.
-/
import proofs.«135288_j14302241096029_1_alg».proof.Proof.Gen.KernelIdeal.Skeleton
import proofs.«135288_j14302241096029_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LorentzLayer

/-- The block's fifteen space rows: rows 1..15 of the `[16, 16384]` view of the block. -/
def spaceRows (v0 : Vec Ideal S1x16x16384 .f32) : FVec Ideal S15x16384 .f32 :=
  extractStridedSlice S15x16384 ![1, 0] (shapeCast S16x16384 v0 shapeCasts_S1x16x16384_S16x16384) slices_S16x16384_o1_0_S15x16384

/-- Space row `c` at column `q` is the block's channel `c + 1` at `q`. -/
theorem spaceRows_apply (v0 : Vec Ideal S1x16x16384 .f32) (c : Fin 15) (q : Fin 16384) (r : Fin 16) (hr : r.val = 1 + c.val) :
    spaceRows v0 (ix2 c q) = v0 (ix3 (0 : Fin 1) r q) :=
  (slice2_axis0_apply 1 _ slices_S16x16384_o1_0_S15x16384 c q r hr).trans
    (shapeCast_1ab_ab_apply v0 shapeCasts_S1x16x16384_S16x16384 r q)

/-- The three pieces laid side by side: a zero margin, the space rows, a zero margin. -/
abbrev padPieces (v0 : Vec Ideal S1x16x16384 .f32) : List ((s : Shape) × (s.Idx → Ideal .f32)) :=
  [⟨S15x4, broadcast S15x4 (Scalar.ofBits .f32 0x00000000#32)⟩, ⟨S15x16384, spaceRows v0⟩,
    ⟨S15x4, broadcast S15x4 (Scalar.ofBits .f32 0x00000000#32)⟩]

/-- The space rows between two margins of four zero columns. -/
def padRows (v0 : Vec Ideal S1x16x16384 .f32) : FVec Ideal S15x16392 .f32 :=
  concatenate S15x16392 1 (padPieces v0) concatenates_S15x4_S15x16384_S15x4_S15x16392_d1

/-- The left margin is zero. -/
theorem padRows_left (v0 : Vec Ideal S1x16x16384 .f32) (c : Fin 15) (p : Fin 16392) (hp : p.val < 4) :
    padRows v0 (ix2 c p) = 0 :=
  (concatenate_apply_piece (t := S15x16392) (1 : Fin 2) (padPieces v0) concatenates_S15x4_S15x16384_S15x4_S15x16392_d1 (ix2 c p) 0
    (Nat.zero_lt_succ _) S15x4 (broadcast S15x4 (Scalar.ofBits .f32 0x00000000#32)) rfl rfl 0 rfl (ix2 c (⟨p.val, hp⟩ : Fin 4))
    (fun b hb => match b with | ⟨0, _⟩ => rfl | ⟨1, _⟩ => absurd rfl hb) (Nat.zero_add _)).trans Ideal.ofBits_zero_f32

/-- The right margin is zero. -/
theorem padRows_right (v0 : Vec Ideal S1x16x16384 .f32) (c : Fin 15) (p : Fin 16392) (hp : 16388 ≤ p.val) :
    padRows v0 (ix2 c p) = 0 :=
  (concatenate_apply_piece (t := S15x16392) (1 : Fin 2) (padPieces v0) concatenates_S15x4_S15x16384_S15x4_S15x16392_d1 (ix2 c p) 2
    (Nat.lt_succ_self _) S15x4 (broadcast S15x4 (Scalar.ofBits .f32 0x00000000#32)) rfl rfl 16388 rfl
    (ix2 c (⟨p.val - 16388, by have := p.isLt; omega⟩ : Fin 4))
    (fun b hb => match b with | ⟨0, _⟩ => rfl | ⟨1, _⟩ => absurd rfl hb)
    (by show 16388 + (p.val - 16388) = p.val; omega)).trans Ideal.ofBits_zero_f32

/-- Between the margins: the space rows, four columns back. -/
theorem padRows_mid (v0 : Vec Ideal S1x16x16384 .f32) (c : Fin 15) (p : Fin 16392) (h4 : 4 ≤ p.val) (hp : p.val < 16388)
    (r : Fin 16) (hr : r.val = 1 + c.val) (q : Fin 16384) (hq : q.val = p.val - 4) :
    padRows v0 (ix2 c p) = v0 (ix3 (0 : Fin 1) r q) :=
  (concatenate_apply_piece (t := S15x16392) (1 : Fin 2) (padPieces v0) concatenates_S15x4_S15x16384_S15x4_S15x16392_d1 (ix2 c p) 1
    (by show 1 < 3; omega) S15x16384 (spaceRows v0) rfl rfl 4 rfl (ix2 c q)
    (fun b hb => match b with | ⟨0, _⟩ => rfl | ⟨1, _⟩ => absurd rfl hb)
    (by show 4 + q.val = p.val; omega)).trans (spaceRows_apply v0 c q r hr)

end Cert.KernelIdeal.Body

end
-- ==== Proof.KernelTime.lean ====
/-
  From the padded space rows `P = padRows v0` (`[15, 16392]`) of one batch's block:

    * `sqsum`: the squared norm of each padded column, `sum_c P[c, p] ^ 2`, as a `[1, 16392]` row;
    * `timeSq`: the running total over the nine taps, `0 + sqsum[l] + sqsum[l + 1] + … + sqsum[l + 8]`, left to right;
    * `timeVal`: the window's time coordinate `sqrt (1 + timeSq)`;
    * `stack`: the nine copies of `P` shifted by 0..8 columns, laid one under the other, `[135, 16384]`: row `k` at column
      `l` is `P[k % 15, l + k / 15]`.
-/
import proofs.«135288_j14302241096029_1_alg».proof.Proof.Gen.KernelIdeal.Skeleton
import proofs.«135288_j14302241096029_1_alg».proof.Proof.Spec
import proofs.«135288_j14302241096029_1_alg».proof.Proof.KernelPad
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LorentzLayer

/-- Each padded column's squared norm, as one row. -/
def sqsum (v0 : Vec Ideal S1x16x16384 .f32) : FVec Ideal S1x16392 .f32 :=
  shapeCast S1x16392 (multiReduction .add [0] S16392 (mulf (padRows v0) (padRows v0)) 0x00000000#32 reduces_S15x16392_S16392 (.inl rfl) rfl)
    shapeCasts_S16392_S1x16392

/-- A sum over the rows of a `[15, 16392]` array, read at column `p`. -/
theorem colSum_apply (src : FVec Ideal S15x16392 .f32) (hacc : (0x00000000#32 : BitVec 32) = 0x00000000#32) (p : Fin 16392) :
    multiReduction .add [0] S16392 src 0x00000000#32 reduces_S15x16392_S16392 (.inl rfl) hacc (ix1 p)
      = ∑ c : Fin 15, src (ix2 c p) :=
  (Ideal.multiReduction_add_single src 0x00000000#32 reduces_S15x16392_S16392 (.inl rfl) hacc (ix1 p)).trans
    (Finset.sum_congr rfl fun c _ => congrArg src (funext fun a => Fin.ext (by
      match a with
      | ⟨0, _⟩ => rfl
      | ⟨1, _⟩ => rfl)))

/-- The squared norm of padded column `p`. -/
theorem sqsum_apply (v0 : Vec Ideal S1x16x16384 .f32) (p : Fin 16392) :
    sqsum v0 (ix2 (0 : Fin 1) p) = ∑ c : Fin 15, padRows v0 (ix2 c p) * padRows v0 (ix2 c p) :=
  (shapeCast_a_1a_apply _ shapeCasts_S16392_S1x16392 (0 : Fin 1) p).trans (colSum_apply _ rfl p)

/-- The nine-tap running total of the squared norms, from zero, left to right. -/
def timeSq (v0 : Vec Ideal S1x16x16384 .f32) : FVec Ideal S1x16384 .f32 :=
  addf (addf (addf (addf (addf (addf (addf (addf (addf (broadcast S1x16384 (Scalar.ofBits .f32 0x00000000#32)) (extractStridedSlice S1x16384 ![0, 0] (sqsum v0) slices_S1x16392_o0_0_S1x16384)) (extractStridedSlice S1x16384 ![0, 1] (sqsum v0) slices_S1x16392_o0_1_S1x16384)) (extractStridedSlice S1x16384 ![0, 2] (sqsum v0) slices_S1x16392_o0_2_S1x16384)) (extractStridedSlice S1x16384 ![0, 3] (sqsum v0) slices_S1x16392_o0_3_S1x16384)) (extractStridedSlice S1x16384 ![0, 4] (sqsum v0) slices_S1x16392_o0_4_S1x16384)) (extractStridedSlice S1x16384 ![0, 5] (sqsum v0) slices_S1x16392_o0_5_S1x16384)) (extractStridedSlice S1x16384 ![0, 6] (sqsum v0) slices_S1x16392_o0_6_S1x16384)) (extractStridedSlice S1x16384 ![0, 7] (sqsum v0) slices_S1x16392_o0_7_S1x16384)) (extractStridedSlice S1x16384 ![0, 8] (sqsum v0) slices_S1x16392_o0_8_S1x16384)

/-- A shifted window of the squared-norm row, read at column `l`. -/
theorem sqsum_shift_apply (v0 : Vec Ideal S1x16x16384 .f32) (j : Nat) (h : S1x16392.Slices ![0, j] S1x16384)
    (l : Fin 16384) (p : Fin 16392) (hp : p.val = j + l.val) :
    extractStridedSlice S1x16384 ![0, j] (sqsum v0) h (ix2 (0 : Fin 1) l) = ∑ c : Fin 15, padRows v0 (ix2 c p) * padRows v0 (ix2 c p) :=
  (slice2_axis1_apply j (sqsum v0) h (0 : Fin 1) l p hp).trans (sqsum_apply v0 p)

/-- The window's time coordinate. -/
def timeVal (v0 : Vec Ideal S1x16x16384 .f32) : FVec Ideal S1x16384 .f32 :=
  sqrt (addf (broadcast S1x16384 (Scalar.ofBits .f32 0x3F800000#32)) (timeSq v0))

/-- The square root of a constant plus a row, at an index (the constant's word left as a variable: it is never evaluated). -/
theorem sqrt_const_add_apply (w : BitVec 32) (v : FVec Ideal S1x16384 .f32) (i : S1x16384.Idx) :
    sqrt (addf (broadcast S1x16384 (Scalar.ofBits .f32 w)) v) i = Ideal.sqrt (Ideal.ofBits .f32 w + v i) := rfl

theorem timeVal_apply (v0 : Vec Ideal S1x16x16384 .f32) (l : Fin 16384) :
    timeVal v0 (ix2 (0 : Fin 1) l) = Ideal.sqrt (one + timeSq v0 (ix2 (0 : Fin 1) l)) :=
  sqrt_const_add_apply 0x3F800000#32 (timeSq v0) (ix2 (0 : Fin 1) l)

/-- The padded rows shifted left by `j` columns, `j < 9`. -/
def shifted (v0 : Vec Ideal S1x16x16384 .f32) : Fin 9 → (S15x16384.Idx → Ideal .f32)
  | ⟨0, _⟩ => extractStridedSlice S15x16384 ![0, 0] (padRows v0) slices_S15x16392_o0_0_S15x16384
  | ⟨1, _⟩ => extractStridedSlice S15x16384 ![0, 1] (padRows v0) slices_S15x16392_o0_1_S15x16384
  | ⟨2, _⟩ => extractStridedSlice S15x16384 ![0, 2] (padRows v0) slices_S15x16392_o0_2_S15x16384
  | ⟨3, _⟩ => extractStridedSlice S15x16384 ![0, 3] (padRows v0) slices_S15x16392_o0_3_S15x16384
  | ⟨4, _⟩ => extractStridedSlice S15x16384 ![0, 4] (padRows v0) slices_S15x16392_o0_4_S15x16384
  | ⟨5, _⟩ => extractStridedSlice S15x16384 ![0, 5] (padRows v0) slices_S15x16392_o0_5_S15x16384
  | ⟨6, _⟩ => extractStridedSlice S15x16384 ![0, 6] (padRows v0) slices_S15x16392_o0_6_S15x16384
  | ⟨7, _⟩ => extractStridedSlice S15x16384 ![0, 7] (padRows v0) slices_S15x16392_o0_7_S15x16384
  | ⟨8, _⟩ => extractStridedSlice S15x16384 ![0, 8] (padRows v0) slices_S15x16392_o0_8_S15x16384
  | ⟨n + 9, h⟩ => absurd h (by omega)

theorem shifted_apply (v0 : Vec Ideal S1x16x16384 .f32) (j : Fin 9) (c : Fin 15) (l : Fin 16384) (p : Fin 16392)
    (hp : p.val = j.val + l.val) : shifted v0 j (ix2 c l) = padRows v0 (ix2 c p) := by
  match j with
  | ⟨0, _⟩ => exact slice2_axis1_apply 0 (padRows v0) slices_S15x16392_o0_0_S15x16384 c l p hp
  | ⟨1, _⟩ => exact slice2_axis1_apply 1 (padRows v0) slices_S15x16392_o0_1_S15x16384 c l p hp
  | ⟨2, _⟩ => exact slice2_axis1_apply 2 (padRows v0) slices_S15x16392_o0_2_S15x16384 c l p hp
  | ⟨3, _⟩ => exact slice2_axis1_apply 3 (padRows v0) slices_S15x16392_o0_3_S15x16384 c l p hp
  | ⟨4, _⟩ => exact slice2_axis1_apply 4 (padRows v0) slices_S15x16392_o0_4_S15x16384 c l p hp
  | ⟨5, _⟩ => exact slice2_axis1_apply 5 (padRows v0) slices_S15x16392_o0_5_S15x16384 c l p hp
  | ⟨6, _⟩ => exact slice2_axis1_apply 6 (padRows v0) slices_S15x16392_o0_6_S15x16384 c l p hp
  | ⟨7, _⟩ => exact slice2_axis1_apply 7 (padRows v0) slices_S15x16392_o0_7_S15x16384 c l p hp
  | ⟨8, _⟩ => exact slice2_axis1_apply 8 (padRows v0) slices_S15x16392_o0_8_S15x16384 c l p hp
  | ⟨n + 9, h⟩ => exact absurd h (by omega)

/-- The nine shifted copies one under the other. -/
def stack (v0 : Vec Ideal S1x16x16384 .f32) : FVec Ideal S135x16384 .f32 :=
  concatenate S135x16384 0 (List.ofFn fun n : Fin 9 => (⟨S15x16384, shifted v0 n⟩ : (s : Shape) × (s.Idx → Ideal .f32)))
    concatenates_S15x16384_S15x16384_S15x16384_S15x16384_S15x16384_S15x16384_S15x16384_S15x16384_S15x16384_S135x16384_d0

/-- Row `k` of the stack at column `l`: channel `k % 15` of the padded rows, `k / 15` columns on. -/
theorem stack_apply (v0 : Vec Ideal S1x16x16384 .f32) (k : Fin 135) (l : Fin 16384) (c : Fin 15) (hc : c.val = k.val % 15)
    (p : Fin 16392) (hp : p.val = k.val / 15 + l.val) :
    stack v0 (ix2 k l) = padRows v0 (ix2 c p) :=
  (concatenate_ofFn_apply (t := S135x16384) (s₁ := S15x16384) (0 : Fin 2) (shifted v0)
    concatenates_S15x16384_S15x16384_S15x16384_S15x16384_S15x16384_S15x16384_S15x16384_S15x16384_S15x16384_S135x16384_d0
    rfl 15 rfl (ix2 k l) (⟨k.val / 15, by have := k.isLt; omega⟩ : Fin 9) rfl (ix2 c l) hc
    (fun b hb => match b with | ⟨0, _⟩ => absurd rfl hb | ⟨1, _⟩ => rfl)).trans
    (shifted_apply v0 _ c l p hp)

end Cert.KernelIdeal.Body

end
-- ==== Proof.KernelWindow.lean ====
/-
  The window at position `l`, read off one batch's block. When the block `v0` is batch `t` of the input `x`
  (`v0[0, r, q] = x[t, r, q]`), the padded rows are the specification's `padded x t`, the nine-tap running total of the
  squared norms is the sum of the 135 squared window entries (nine sums of fifteen regrouped into one sum of 135:
  `sum_taps`), so `timeVal` is the window's time coordinate `timeIn`, and row `k` of the stack is window entry `tap k`.
-/
import proofs.«135288_j14302241096029_1_alg».proof.Proof.Gen.KernelIdeal.Skeleton
import proofs.«135288_j14302241096029_1_alg».proof.Proof.Spec
import proofs.«135288_j14302241096029_1_alg».proof.Proof.KernelTime
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LorentzLayer

/-- The padded rows with the column a natural number: zero past the end. -/
def padAt (v0 : Vec Ideal S1x16x16384 .f32) (c : Fin 15) (p : Nat) : EReal :=
  if h : p < 16392 then padRows v0 (ix2 c (⟨p, h⟩ : Fin 16392)) else 0

theorem padRows_eq_padAt (v0 : Vec Ideal S1x16x16384 .f32) (c : Fin 15) (p : Fin 16392) :
    padRows v0 (ix2 c p) = padAt v0 c p.val := by
  unfold padAt; rw [dif_pos p.isLt]

/-- The block's padded rows are the input's, at batch `t`. -/
theorem padAt_eq_padded (x : (⟨3, ![32, 16, 16384]⟩ : Shape).Idx → EReal) (t : Fin 32) (v0 : Vec Ideal S1x16x16384 .f32)
    (hv : ∀ (r : Fin 16) (q : Fin 16384), v0 (ix3 (0 : Fin 1) r q) = x (ix3 t r q)) (c : Fin 15) (p : Nat) :
    padAt v0 c p = padded x t c.val p := by
  have hc := c.isLt
  unfold padAt
  by_cases hp : p < 16392
  · rw [dif_pos hp]
    by_cases h4 : p < 4
    · rw [padRows_left v0 c ⟨p, hp⟩ h4, padded_margin x t _ _ (Or.inl h4)]
    · by_cases h5 : 16388 ≤ p
      · rw [padRows_right v0 c ⟨p, hp⟩ h5, padded_margin x t _ _ (Or.inr h5)]
      · rw [padRows_mid v0 c ⟨p, hp⟩ (by show 4 ≤ p; omega) (by show p < 16388; omega) (⟨1 + c.val, by omega⟩ : Fin 16) rfl
            (⟨p - 4, by omega⟩ : Fin 16384) rfl, hv,
          padded_inside x t c.val p hc (by omega) (by omega) (⟨1 + c.val, by omega⟩ : Fin 16) (⟨p - 4, by omega⟩ : Fin 16384)
            (by show 1 + c.val = c.val + 1; omega) rfl]
  · rw [dif_neg hp, padded_margin x t _ _ (Or.inr (by omega))]

/-- Ten summands added left to right, at an index. -/
theorem add9_apply (z : Ideal .f32) (s0 s1 s2 s3 s4 s5 s6 s7 s8 : FVec Ideal S1x16384 .f32) (i : S1x16384.Idx) :
    (addf (addf (addf (addf (addf (addf (addf (addf (addf (broadcast S1x16384 z) s0) s1) s2) s3) s4) s5) s6) s7) s8) i
      = z + s0 i + s1 i + s2 i + s3 i + s4 i + s5 i + s6 i + s7 i + s8 i := rfl

/-- The squared norm of padded column `l + j`, `j < 9`, through the row's `j`-th shifted window. -/
theorem sqsum_tap (v0 : Vec Ideal S1x16x16384 .f32) (j : Nat) (hj : j < 9) (h : S1x16392.Slices ![0, j] S1x16384) (l : Fin 16384) :
    extractStridedSlice S1x16384 ![0, j] (sqsum v0) h (ix2 (0 : Fin 1) l)
      = ∑ c : Fin 15, padAt v0 c (l.val + j) * padAt v0 c (l.val + j) := by
  have hl := l.isLt
  rw [sqsum_shift_apply v0 j h l (⟨l.val + j, by omega⟩ : Fin 16392) (by show l.val + j = j + l.val; omega)]
  exact Finset.sum_congr rfl fun c _ => by rw [padRows_eq_padAt]

/-- The running total, written out. -/
theorem timeSq_apply (v0 : Vec Ideal S1x16x16384 .f32) (l : Fin 16384) :
    timeSq v0 (ix2 (0 : Fin 1) l)
      = 0 + (∑ c : Fin 15, padAt v0 c (l.val + 0) * padAt v0 c (l.val + 0)) + (∑ c : Fin 15, padAt v0 c (l.val + 1) * padAt v0 c (l.val + 1))
        + (∑ c : Fin 15, padAt v0 c (l.val + 2) * padAt v0 c (l.val + 2)) + (∑ c : Fin 15, padAt v0 c (l.val + 3) * padAt v0 c (l.val + 3))
        + (∑ c : Fin 15, padAt v0 c (l.val + 4) * padAt v0 c (l.val + 4)) + (∑ c : Fin 15, padAt v0 c (l.val + 5) * padAt v0 c (l.val + 5))
        + (∑ c : Fin 15, padAt v0 c (l.val + 6) * padAt v0 c (l.val + 6)) + (∑ c : Fin 15, padAt v0 c (l.val + 7) * padAt v0 c (l.val + 7))
        + (∑ c : Fin 15, padAt v0 c (l.val + 8) * padAt v0 c (l.val + 8)) := by
  unfold timeSq
  refine (add9_apply _ _ _ _ _ _ _ _ _ _ _).trans ?_
  rw [sqsum_tap v0 0 (by omega) _ l, sqsum_tap v0 1 (by omega) _ l, sqsum_tap v0 2 (by omega) _ l, sqsum_tap v0 3 (by omega) _ l,
    sqsum_tap v0 4 (by omega) _ l, sqsum_tap v0 5 (by omega) _ l, sqsum_tap v0 6 (by omega) _ l, sqsum_tap v0 7 (by omega) _ l,
    sqsum_tap v0 8 (by omega) _ l]
  exact congrArg (fun z : EReal => z + _ + _ + _ + _ + _ + _ + _ + _ + _) Ideal.ofBits_zero_f32

/-- The running total is the sum of the 135 squared window entries. -/
theorem timeSq_eq (x : (⟨3, ![32, 16, 16384]⟩ : Shape).Idx → EReal) (t : Fin 32) (v0 : Vec Ideal S1x16x16384 .f32)
    (hv : ∀ (r : Fin 16) (q : Fin 16384), v0 (ix3 (0 : Fin 1) r q) = x (ix3 t r q)) (l : Fin 16384) :
    timeSq v0 (ix2 (0 : Fin 1) l) = ∑ k : Fin 135, tap x t l k * tap x t l k := by
  rw [timeSq_apply]
  simp only [padAt_eq_padded x t v0 hv]
  have e := sum_taps (fun j c => padded x t c (l.val + j) * padded x t c (l.val + j))
  exact e.symm

/-- The body's time row at column `l` is the window's time coordinate. -/
theorem timeVal_eq (x : (⟨3, ![32, 16, 16384]⟩ : Shape).Idx → EReal) (t : Fin 32) (v0 : Vec Ideal S1x16x16384 .f32)
    (hv : ∀ (r : Fin 16) (q : Fin 16384), v0 (ix3 (0 : Fin 1) r q) = x (ix3 t r q)) (l : Fin 16384) :
    timeVal v0 (ix2 (0 : Fin 1) l) = timeIn x t l := by
  rw [timeVal_apply, timeSq_eq x t v0 hv l]; rfl

/-- Row `k` of the stack at column `l` is window entry `k`. -/
theorem stack_eq (x : (⟨3, ![32, 16, 16384]⟩ : Shape).Idx → EReal) (t : Fin 32) (v0 : Vec Ideal S1x16x16384 .f32)
    (hv : ∀ (r : Fin 16) (q : Fin 16384), v0 (ix3 (0 : Fin 1) r q) = x (ix3 t r q)) (k : Fin 135) (l : Fin 16384) :
    stack v0 (ix2 k l) = tap x t l k := by
  have hk := k.isLt
  have hl := l.isLt
  rw [stack_apply v0 k l (⟨k.val % 15, by omega⟩ : Fin 15) rfl (⟨l.val + k.val / 15, by omega⟩ : Fin 16392)
      (by show l.val + k.val / 15 = k.val / 15 + l.val; omega),
    padRows_eq_padAt, padAt_eq_padded x t v0 hv]
  rfl

end Cert.KernelIdeal.Body

end
-- ==== Proof.KernelHidden.lean ====
/-
  The body's arithmetic, read at an index. With `v0` batch `t`'s block of the input, `w0` the weights' first column,
  `w` their other 135 columns and `bb` the bias as a column:

    * the pre-activation at `(o, l)` is `w0[o] * timeVal[l] + sum_k w[o, k] * stack[k, l] + bb[o]` (a column broadcast
      times a row broadcast, plus a matrix product into a zero accumulator, plus a column broadcast);
    * clipped below at zero it is the specification's `hidden` unit `o` — the two products commuted, nothing else;
    * the row `sqrt (1 + sum_o hidden_o ^ 2)` on top of the 63 hidden rows is the specification's `layer`.
-/
import proofs.«135288_j14302241096029_1_alg».proof.Proof.Gen.KernelIdeal.Skeleton
import proofs.«135288_j14302241096029_1_alg».proof.Proof.Spec
import proofs.«135288_j14302241096029_1_alg».proof.Proof.KernelWindow
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LorentzLayer

/-! ## Broadcasts and the matrix product at an index -/

/-- A `[63, 1]` column broadcast along the columns reads, at `(o, l)`, the column at `o`. -/
theorem colBroadcast_apply (v : FVec Ideal S63x1 .f32) (o : Fin 63) (l : Fin 16384) :
    broadcastTo S63x16384 v broadcasts_S63x1_S63x16384 (ix2 o l) = v (ix2 o (0 : Fin 1)) :=
  broadcastTo_apply v broadcasts_S63x1_S63x16384 (ix2 o l) (ix2 o (0 : Fin 1)) fun a => by
    match a with
    | ⟨0, _⟩ => show o.val = if (63 : Nat) = 1 then 0 else o.val; rw [if_neg (by decide)]
    | ⟨1, _⟩ => show 0 = if (1 : Nat) = 1 then 0 else l.val; rw [if_pos rfl]

/-- The product's left operand index keeps the output's row … -/
theorem product_lhs_row (i : S63x16384.Idx) (q : dot_S63x135_S135x16384_S63x16384_1_0_0_1_n_n.contr.Idx) : (dot_S63x135_S135x16384_S63x16384_1_0_0_1_n_n.lhsIdx i q 0).val = (i 0).val := by
  unfold DotDims.lhsIdx
  rw [dif_neg (show ¬(0 : Fin S63x135.rank) ∈ dot_S63x135_S135x16384_S63x16384_1_0_0_1_n_n.lhsBatch by decide),
    dif_pos (show (0 : Fin S63x135.rank) ∈ dot_S63x135_S135x16384_S63x16384_1_0_0_1_n_n.lhsNonContracting by decide)]
  rfl
/-- … and its right operand index the output's column. -/
theorem product_rhs_col (i : S63x16384.Idx) (q : dot_S63x135_S135x16384_S63x16384_1_0_0_1_n_n.contr.Idx) : (dot_S63x135_S135x16384_S63x16384_1_0_0_1_n_n.rhsIdx i q 1).val = (i 1).val := by
  unfold DotDims.rhsIdx
  rw [dif_neg (show ¬(1 : Fin S135x16384.rank) ∈ dot_S63x135_S135x16384_S63x16384_1_0_0_1_n_n.rhsBatch by decide),
    dif_pos (show (1 : Fin S135x16384.rank) ∈ dot_S63x135_S135x16384_S63x16384_1_0_0_1_n_n.rhsNonContracting by decide)]
  rfl

/-- The `[63, 135] × [135, 16384]` product into a zero accumulator, at `(o, l)`. -/
theorem product_apply (lhs : FVec Ideal S63x135 .f32) (rhs : FVec Ideal S135x16384 .f32) (o : Fin 63) (l : Fin 16384) :
    matmul dot_S63x135_S135x16384_S63x16384_1_0_0_1_n_n none lhs rhs (constant S63x16384 .f32 0x00000000#32) (ix2 o l)
      = ∑ k : Fin 135, lhs (ix2 o k) * rhs (ix2 k l) := by
  refine (Ideal.matmul_constant_zero_apply dot_S63x135_S135x16384_S63x16384_1_0_0_1_n_n none lhs rhs (ix2 o l)).trans ?_
  rw [← Equiv.sum_comp (contrEquiv1 dot_S63x135_S135x16384_S63x16384_1_0_0_1_n_n 135 rfl rfl).symm]
  refine Finset.sum_congr rfl fun k _ => ?_
  have hk := contrEquiv1_symm_val dot_S63x135_S135x16384_S63x16384_1_0_0_1_n_n 135 rfl rfl k
  have el : dot_S63x135_S135x16384_S63x16384_1_0_0_1_n_n.lhsIdx (ix2 o l) ((contrEquiv1 dot_S63x135_S135x16384_S63x16384_1_0_0_1_n_n 135 rfl rfl).symm k) = ix2 o k := funext fun a => Fin.ext (by
    match a with
    | ⟨0, _⟩ => exact product_lhs_row _ _
    | ⟨1, _⟩ => exact (dot_S63x135_S135x16384_S63x16384_1_0_0_1_n_n.lhsIdx_val_of_single rfl _ _).trans hk)
  have er : dot_S63x135_S135x16384_S63x16384_1_0_0_1_n_n.rhsIdx (ix2 o l) ((contrEquiv1 dot_S63x135_S135x16384_S63x16384_1_0_0_1_n_n 135 rfl rfl).symm k) = ix2 k l := funext fun a => Fin.ext (by
    match a with
    | ⟨0, _⟩ => exact (dot_S63x135_S135x16384_S63x16384_1_0_0_1_n_n.rhsIdx_val_of_single rfl _ _).trans hk
    | ⟨1, _⟩ => exact product_rhs_col _ _)
  rw [el, er]

/-! ## The first payload: the pre-activation without the bias -/

/-- The payload is the column of first weights times the time row, plus the product of the other weights with the stack. -/
theorem pay2_eq (v0 : Vec Ideal S1x16x16384 .f32) (w0 : Vec Ideal S63x1 .f32) (w : FVec Ideal S63x135 .f32) :
    k0_pay2 v0 w0 w
      = addf (mulf (broadcastTo S63x16384 w0 broadcasts_S63x1_S63x16384) (broadcastTo S63x16384 (timeVal v0) broadcasts_S1x16384_S63x16384))
          (matmul dot_S63x135_S135x16384_S63x16384_1_0_0_1_n_n none w (stack v0) (constant S63x16384 .f32 0x00000000#32)) := rfl

theorem pay2_apply (v0 : Vec Ideal S1x16x16384 .f32) (w0 : Vec Ideal S63x1 .f32) (w : FVec Ideal S63x135 .f32) (o : Fin 63) (l : Fin 16384) :
    k0_pay2 v0 w0 w (ix2 o l)
      = w0 (ix2 o (0 : Fin 1)) * timeVal v0 (ix2 (0 : Fin 1) l) + ∑ k : Fin 135, w (ix2 o k) * stack v0 (ix2 k l) := by
  rw [pay2_eq, addf_apply, mulf_apply, colBroadcast_apply, product_apply,
    broadcastTo_1b_ab_apply (timeVal v0) broadcasts_S1x16384_S63x16384 o l]

/-! ## The second payload: bias, clip, the output's time row, the rows stacked -/

/-- The hidden rows: pre-activation plus bias column, clipped below at zero. -/
def hiddenRows (v46 : FVec Ideal S63x16384 .f32) (bb : Vec Ideal S63x1 .f32) : FVec Ideal S63x16384 .f32 :=
  maximumf (addf v46 (broadcastTo S63x16384 (shapeCast S63x1 bb shapeCasts_S63x1_S63x1) broadcasts_S63x1_S63x16384))
    (broadcast S63x16384 (Scalar.ofBits .f32 0x00000000#32))

/-- A maximum with a constant, at an index (the constant's word a variable). -/
theorem max_const_apply (wd : BitVec 32) (a : FVec Ideal S63x16384 .f32) (i : S63x16384.Idx) :
    maximumf a (broadcast S63x16384 (Scalar.ofBits .f32 wd)) i = max (a i) (Ideal.ofBits .f32 wd) := rfl

theorem hiddenRows_apply (v46 : FVec Ideal S63x16384 .f32) (bb : Vec Ideal S63x1 .f32) (o : Fin 63) (l : Fin 16384) :
    hiddenRows v46 bb (ix2 o l) = max (v46 (ix2 o l) + bb (ix2 o (0 : Fin 1))) 0 := by
  unfold hiddenRows
  rw [max_const_apply, addf_apply, colBroadcast_apply, shapeCast_self, Ideal.ofBits_zero_f32]

/-- The output's time row over given hidden rows. -/
def outTime (h : FVec Ideal S63x16384 .f32) : FVec Ideal S1x16384 .f32 :=
  sqrt (addf (broadcast S1x16384 (Scalar.ofBits .f32 0x3F800000#32))
    (shapeCast S1x16384 (multiReduction .add [0] S16384 (mulf h h) 0x00000000#32 reduces_S63x16384_S16384 (.inl rfl) rfl) shapeCasts_S16384_S1x16384))

/-- A sum over the rows of a `[63, 16384]` array, read at column `l`. -/
theorem rowsSum_apply (src : FVec Ideal S63x16384 .f32) (hacc : (0x00000000#32 : BitVec 32) = 0x00000000#32) (l : Fin 16384) :
    multiReduction .add [0] S16384 src 0x00000000#32 reduces_S63x16384_S16384 (.inl rfl) hacc (ix1 l)
      = ∑ o : Fin 63, src (ix2 o l) :=
  (Ideal.multiReduction_add_single src 0x00000000#32 reduces_S63x16384_S16384 (.inl rfl) hacc (ix1 l)).trans
    (Finset.sum_congr rfl fun o _ => congrArg src (funext fun a => Fin.ext (by
      match a with
      | ⟨0, _⟩ => rfl
      | ⟨1, _⟩ => rfl)))

theorem outTime_apply (h : FVec Ideal S63x16384 .f32) (l : Fin 16384) :
    outTime h (ix2 (0 : Fin 1) l) = Ideal.sqrt (one + ∑ o : Fin 63, h (ix2 o l) * h (ix2 o l)) := by
  refine (sqrt_const_add_apply 0x3F800000#32 _ (ix2 (0 : Fin 1) l)).trans ?_
  rw [shapeCast_a_1a_apply _ shapeCasts_S16384_S1x16384 (0 : Fin 1) l, rowsSum_apply _ rfl l]
  rfl

/-- The two pieces of the result block: the time row, then the hidden rows. -/
abbrev outPieces (h : FVec Ideal S63x16384 .f32) : List ((s : Shape) × (s.Idx → Ideal .f32)) :=
  [⟨S1x16384, outTime h⟩, ⟨S63x16384, h⟩]

/-- The second payload is the time row on top of the hidden rows, with a leading unit axis. -/
theorem pay1_eq (v46 : FVec Ideal S63x16384 .f32) (bb : Vec Ideal S63x1 .f32) :
    k0_pay1 v46 bb
      = shapeCast S1x64x16384 (concatenate S64x16384 0 (outPieces (hiddenRows v46 bb)) concatenates_S1x16384_S63x16384_S64x16384_d0)
          shapeCasts_S64x16384_S1x64x16384 := rfl

theorem pay1_apply_zero (v46 : FVec Ideal S63x16384 .f32) (bb : Vec Ideal S63x1 .f32) (r : Fin 64) (hr : r.val = 0) (l : Fin 16384) :
    k0_pay1 v46 bb (ix3 (0 : Fin 1) r l) = outTime (hiddenRows v46 bb) (ix2 (0 : Fin 1) l) := by
  rw [pay1_eq, shapeCast_ab_1ab_apply _ shapeCasts_S64x16384_S1x64x16384 (0 : Fin 1) r l]
  exact concatenate_pair_apply_left (t := S64x16384) (0 : Fin 2) (outTime (hiddenRows v46 bb)) (hiddenRows v46 bb)
    concatenates_S1x16384_S63x16384_S64x16384_d0 (ix2 r l) rfl (ix2 (0 : Fin 1) l)
    (fun b => match b with | ⟨0, _⟩ => hr.symm | ⟨1, _⟩ => rfl)

theorem pay1_apply_succ (v46 : FVec Ideal S63x16384 .f32) (bb : Vec Ideal S63x1 .f32) (r : Fin 64) (o : Fin 63) (hr : r.val = o.val + 1)
    (l : Fin 16384) :
    k0_pay1 v46 bb (ix3 (0 : Fin 1) r l) = hiddenRows v46 bb (ix2 o l) := by
  rw [pay1_eq, shapeCast_ab_1ab_apply _ shapeCasts_S64x16384_S1x64x16384 (0 : Fin 1) r l]
  exact concatenate_pair_apply_right (t := S64x16384) (0 : Fin 2) (outTime (hiddenRows v46 bb)) (hiddenRows v46 bb)
    concatenates_S1x16384_S63x16384_S64x16384_d0 (ix2 r l) rfl rfl (ix2 o l)
    (fun b hb => match b with | ⟨0, _⟩ => absurd rfl hb | ⟨1, _⟩ => rfl)
    (by show o.val + 1 = r.val; omega)

/-! ## Against the specification -/

section Spec
variable (x : (⟨3, ![32, 16, 16384]⟩ : Shape).Idx → EReal) (W : (⟨2, ![63, 136]⟩ : Shape).Idx → EReal)
  (b : (⟨1, ![63]⟩ : Shape).Idx → EReal) (t : Fin 32)
  (v0 : Vec Ideal S1x16x16384 .f32) (w0 : Vec Ideal S63x1 .f32) (w : FVec Ideal S63x135 .f32) (bb : Vec Ideal S63x1 .f32)
  (hv : ∀ (r : Fin 16) (q : Fin 16384), v0 (ix3 (0 : Fin 1) r q) = x (ix3 t r q))
  (hw0 : ∀ o : Fin 63, w0 (ix2 o (0 : Fin 1)) = W (ix2 o (0 : Fin 136)))
  (hw : ∀ (o : Fin 63) (k : Fin 135), w (ix2 o k) = W (ix2 o (⟨k.val + 1, by omega⟩ : Fin 136)))
  (hb : ∀ o : Fin 63, bb (ix2 o (0 : Fin 1)) = b (ix1 o))
include hv hw0 hw hb

/-- Hidden row `o` at column `l` is the specification's hidden unit: the same terms with the two products commuted. -/
theorem hiddenRows_eq (o : Fin 63) (l : Fin 16384) :
    hiddenRows (k0_pay2 v0 w0 w) bb (ix2 o l) = Cert.LorentzLayer.hidden x W b t l o := by
  rw [hiddenRows_apply, pay2_apply, timeVal_eq x t v0 hv l, hw0 o, hb o]
  unfold Cert.LorentzLayer.hidden
  refine congrArg (fun z => max (z + b (ix1 o)) 0) ?_
  rw [mul_comm (W (ix2 o (0 : Fin 136))) (timeIn x t l)]
  refine congrArg (fun z => timeIn x t l * W (ix2 o (0 : Fin 136)) + z) (Finset.sum_congr rfl fun k _ => ?_)
  rw [stack_eq x t v0 hv k l, hw o k, mul_comm]

/-- THE BLOCK: what the body stores for batch `t`, at row `r` and column `l`, is the layer there. -/
theorem block_eq (r : Fin 64) (l : Fin 16384) :
    k0_pay1 (k0_pay2 v0 w0 w) bb (ix3 (0 : Fin 1) r l) = layer x W b t r l := by
  unfold layer
  by_cases h0 : r.val = 0
  · rw [dif_pos h0, pay1_apply_zero _ _ r h0 l, outTime_apply]
    unfold timeOut
    refine congrArg (fun z => Ideal.sqrt (one + z)) (Finset.sum_congr rfl fun o _ => ?_)
    rw [hiddenRows_eq x W b t v0 w0 w bb hv hw0 hw hb o l]
  · have hr := r.isLt
    rw [dif_neg h0, pay1_apply_succ _ _ r (⟨r.val - 1, by omega⟩ : Fin 63) (by show r.val = r.val - 1 + 1; omega) l]
    exact hiddenRows_eq x W b t v0 w0 w bb hv hw0 hw hb _ l

end Spec

end Cert.KernelIdeal.Body

end
-- ==== Proof.KernelValue.lean ====
/-
  From blocks to the array. The grid has one point per batch: point `t` fetches batch `t` of the input (a `[1, 16, 16384]`
  block), the whole weight matrix and the whole bias column (the bias reshaped `[63] → [63, 1]` on the host before the
  launch), and writes back batch `t` of the result (a `[1, 64, 16384]` block). So what point `t` writes back is block `t`
  of the specification's array `G x W b`, the 32 blocks tile the result, and after the run the result array IS `G x W b`.
-/
import proofs.«135288_j14302241096029_1_alg».proof.Proof.Gen.KernelIdeal.Value
import proofs.«135288_j14302241096029_1_alg».proof.Proof.KernelHidden
import Idealize.ShloMosaic.Lib.StableHlo.Run

set_option maxRecDepth 16384

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.LorentzLayer
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the input's and the result's block index is the point's number on
    the batch axis and zero on the others; the weights' and the bias's is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The bias column the region finds: the bias vector reshaped on the host. -/
theorem V_bias (c : Dev nD) :
    (V m c main_v0 : S63x1.Idx → EReal) = shapeCast S63x1 (m ((c : Thread nD τ).loc main_arg2)) shapeCasts_S63_S63x1 := by
  dsimp only [Gen.V, Gen.hostOps0]; after_results; rfl

/-- The body's block at any index of the block (the leading coordinate of a `[1, 64, 16384]` index is zero). -/
theorem block_eq_idx (x : (⟨3, ![32, 16, 16384]⟩ : Shape).Idx → EReal) (W : (⟨2, ![63, 136]⟩ : Shape).Idx → EReal)
    (b : (⟨1, ![63]⟩ : Shape).Idx → EReal) (t : Fin 32)
    (v0 : Vec Ideal S1x16x16384 .f32) (w0 : Vec Ideal S63x1 .f32) (w : FVec Ideal S63x135 .f32) (bb : Vec Ideal S63x1 .f32)
    (hv : ∀ (r : Fin 16) (q : Fin 16384), v0 (ix3 (0 : Fin 1) r q) = x (ix3 t r q))
    (hw0 : ∀ o : Fin 63, w0 (ix2 o (0 : Fin 1)) = W (ix2 o (0 : Fin 136)))
    (hw : ∀ (o : Fin 63) (k : Fin 135), w (ix2 o k) = W (ix2 o (⟨k.val + 1, by omega⟩ : Fin 136)))
    (hb : ∀ o : Fin 63, bb (ix2 o (0 : Fin 1)) = b (ix1 o)) (i : S1x64x16384.Idx) :
    k0_pay1 (k0_pay2 v0 w0 w) bb i = layer x W b t (i 1) (i 2) := by
  have e : i = ix3 (0 : Fin 1) (i 1) (i 2) := funext fun a => by
    match a with
    | ⟨0, _⟩ => exact Fin.ext (by have h : (i 0).val < 1 := (i 0).isLt; show (i 0).val = 0; omega)
    | ⟨1, _⟩ => rfl
    | ⟨2, _⟩ => rfl
  rw [e]
  exact block_eq x W b t v0 w0 w bb hv hw0 hw hb (i 1) (i 2)

theorem layer_congr (x : (⟨3, ![32, 16, 16384]⟩ : Shape).Idx → EReal) (W : (⟨2, ![63, 136]⟩ : Shape).Idx → EReal)
    (b : (⟨1, ![63]⟩ : Shape).Idx → EReal) {t t' : Fin 32} {r r' : Fin 64} {l l' : Fin 16384} (ht : t.val = t'.val)
    (hr : r.val = r'.val) (hl : l.val = l'.val) : layer x W b t r l = layer x W b t' r' l' := by
  rw [Fin.ext ht, Fin.ext hr, Fin.ext hl]

/-- WHAT POINT `t` WRITES BACK is block `t` of the layer's array over the arguments as launched. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero hz3]
  simp only [View.ld_unit_zero (S := S1x16x16384) hz3, View.ld_unit_zero (S := S63x1) hz2]
  obtain ⟨f00, f01, f02, f10, f11, f20, f21, f30, f31, f32⟩ := idx_facts t
  have hN : t.val < 32 := Nat.lt_of_lt_of_eq t.isLt N_0
  funext y
  refine (block_eq_idx (m ((c : Thread nD τ).loc main_arg0)) (m ((c : Thread nD τ).loc main_arg1)) (m ((c : Thread nD τ).loc main_arg2))
    (⟨t.val, hN⟩ : Fin 32) (iblk m c 0 t) (View.ld (iblk m c 1 t) r0_1) (View.ld (iblk m c 1 t) r0_2) (iblk m c 2 t)
    ?_ ?_ ?_ ?_ y).trans ?_
  · intro r q
    show V m c main_arg0 (((cfg0.win 0).blk t).view.emb (ix3 (0 : Fin 1) r q)) = _
    rw [V_main_arg0 m c]
    refine congrArg _ (funext fun a => Fin.ext ?_)
    match a with
    | ⟨0, _⟩ => show win0_0.index t (0 : Fin 3) * 1 + 1 * 0 = t.val; omega
    | ⟨1, _⟩ => show win0_0.index t (1 : Fin 3) * 16 + 1 * r.val = r.val; omega
    | ⟨2, _⟩ => show win0_0.index t (2 : Fin 3) * 16384 + 1 * q.val = q.val; omega
  · intro o
    show V m c main_arg1 (((cfg0.win 1).blk t).view.emb (r0_1.idx (ix2 o (0 : Fin 1)))) = _
    rw [V_main_arg1 m c]
    refine congrArg _ (funext fun a => Fin.ext ?_)
    match a with
    | ⟨0, _⟩ => show win0_1.index t (0 : Fin 2) * 63 + 1 * (0 + 1 * o.val) = o.val; omega
    | ⟨1, _⟩ => show win0_1.index t (1 : Fin 2) * 136 + 1 * (0 + 1 * 0) = 0; omega
  · intro o k
    show V m c main_arg1 (((cfg0.win 1).blk t).view.emb (r0_2.idx (ix2 o k))) = _
    rw [V_main_arg1 m c]
    refine congrArg _ (funext fun a => Fin.ext ?_)
    match a with
    | ⟨0, _⟩ => show win0_1.index t (0 : Fin 2) * 63 + 1 * (0 + 1 * o.val) = o.val; omega
    | ⟨1, _⟩ => show win0_1.index t (1 : Fin 2) * 136 + 1 * (1 + 1 * k.val) = k.val + 1; omega
  · intro o
    show V m c main_v0 (((cfg0.win 2).blk t).view.emb (ix2 o (0 : Fin 1))) = _
    rw [V_bias m c]
    refine shapeCast_apply _ shapeCasts_S63_S63x1 _ (ix1 o) ?_
    rw [Shape.rowMajor_val_one, Shape.rowMajor_val_two]
    show o.val = (win0_2.index t (0 : Fin 2) * 63 + 1 * o.val) * 1 + (win0_2.index t (1 : Fin 2) * 1 + 1 * 0)
    omega
  · show layer _ _ _ (⟨t.val, hN⟩ : Fin 32) (y 1) (y 2) = layer _ _ _ _ _ _
    refine layer_congr _ _ _ ?_ ?_ ?_
    · show t.val = win0_3.index t (0 : Fin 3) * 1 + 1 * (y 0).val
      have : (y 0).val < 1 := (y 0).isLt
      omega
    · show (y 1).val = win0_3.index t (1 : Fin 3) * 64 + 1 * (y 1).val; omega
    · show (y 2).val = win0_3.index t (2 : Fin 3) * 16384 + 1 * (y 2).val; omega

/-- An index of the result is in point `t`'s block iff each coordinate is in the block's range on its axis. -/
theorem mem_blk (t : Fin cfg0.N) (i : S32x64x16384.Idx) :
    i ∈ ((cfg0.win 3).blk t).view.set ↔ ∀ a : Fin 3, win0_3.index t a * S1x64x16384.size a ≤ (i a).val
      ∧ (i a).val < win0_3.index t a * S1x64x16384.size a + S1x64x16384.size a := by
  show i ∈ ((View.whole main_v1).slice (win0_3.rect t)).set ↔ _
  rw [View.set_slice_whole, Rect.mem_set_unit]
  exact Iff.rfl

/-- Every index of the result is in the block of the point its batch coordinate names. -/
theorem cover (i : S32x64x16384.Idx) : ∃ t : Fin cfg0.N, (cfg0.win 3).flush t = true ∧ i ∈ ((cfg0.win 3).blk t).view.set := by
  have h0 : (i 0).val < 32 := (i 0).isLt
  have h1 : (i 1).val < 64 := (i 1).isLt
  have h2 : (i 2).val < 16384 := (i 2).isLt
  have hlt : (i 0).val < cfg0.N := Nat.lt_of_lt_of_eq h0 N_0.symm
  refine ⟨⟨(i 0).val, hlt⟩, flush0_3 _, ?_⟩
  rw [mem_blk]
  obtain ⟨-, -, -, -, -, -, -, f30, f31, f32⟩ := idx_facts ⟨(i 0).val, hlt⟩
  have f30' : win0_3.index ⟨(i 0).val, hlt⟩ (0 : Fin 3) = (i 0).val := f30
  intro a
  match a with
  | ⟨0, _⟩ => show win0_3.index _ (0 : Fin 3) * 1 ≤ (i 0).val ∧ (i 0).val < win0_3.index _ (0 : Fin 3) * 1 + 1; rw [f30']; omega
  | ⟨1, _⟩ => show win0_3.index _ (1 : Fin 3) * 64 ≤ (i 1).val ∧ (i 1).val < win0_3.index _ (1 : Fin 3) * 64 + 64; rw [f31]; omega
  | ⟨2, _⟩ => show win0_3.index _ (2 : Fin 3) * 16384 ≤ (i 2).val ∧ (i 2).val < win0_3.index _ (2 : Fin 3) * 16384 + 16384; rw [f32]; omega

/-- THE RESULT ARRAY after the run is the layer's array over the arguments as launched. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result at the layer's array, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRun.lean ====
/-
  The reference program's @main as the list of its 54 host operations, cut into five consecutive stretches:
  A the padded input and the table of window positions, B the gathered windows laid out as 135 numbers per position,
  C the window's time coordinate put in front of them, D the affine map and its clipping at zero, E the output's time
  coordinate and the final layout. Running the program leaves every buffer at the fold of the operations over the
  launch contents, and the fold over a concatenation of lists is the composition of the folds.
-/
import proofs.«135288_j14302241096029_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stretch A: the input padded by four on either side of the last axis, and the integer table `l + j`. -/
abbrev opsA : List (HloOp τ sig (Elt F)) :=
  [ nullary main_cst (constant S_ .f32 0x3F800000#32),
    unary main_cst main_v0 (broadcastInDim S32x1x4 ![] bcast_S_S32x1x4 : (⟨S_, .f32⟩ : BufTy).Contents (Elt F) → (⟨S32x1x4, .f32⟩ : BufTy).Contents (Elt F)),
    nullary main_cst_0 (constant S_ .f32 0x00000000#32),
    unary main_cst_0 main_v1 (broadcastInDim S32x15x4 ![] bcast_S_S32x15x4 : (⟨S_, .f32⟩ : BufTy).Contents (Elt F) → (⟨S32x15x4, .f32⟩ : BufTy).Contents (Elt F)),
    binary main_v0 main_v1 main_v2 ((fun a b => concatenate S32x16x4 1 [⟨S32x1x4, a⟩, ⟨S32x15x4, b⟩] concatenates_S32x1x4_S32x15x4_S32x16x4_d1) : (⟨S32x1x4, .f32⟩ : BufTy).Contents (Elt F) → (⟨S32x15x4, .f32⟩ : BufTy).Contents (Elt F) → (⟨S32x16x4, .f32⟩ : BufTy).Contents (Elt F)),
    nary ![main_v2, main_arg0, main_v2] main_v3 (fun u => concatenate S32x16x16392 2 [⟨S32x16x4, u 0⟩, ⟨S32x16x16384, u 1⟩, ⟨S32x16x4, u 2⟩] concatenates_S32x16x4_S32x16x16384_S32x16x4_S32x16x16392_d2),
    nullary main_v4 (iotaInDim S16384 32 0),
    unary main_v4 main_v5 (broadcastInDim S16384x1 ![0] bcast_S16384_S16384x1_0 : (⟨S16384, .i32⟩ : BufTy).Contents (Elt F) → (⟨S16384x1, .i32⟩ : BufTy).Contents (Elt F)),
    nullary main_c (constantI S_ 32 1#32),
    unary main_c main_v6 (broadcastInDim S16384x1 ![] bcast_S_S16384x1 : (⟨S_, .i32⟩ : BufTy).Contents (Elt F) → (⟨S16384x1, .i32⟩ : BufTy).Contents (Elt F)),
    binary main_v5 main_v6 main_v7 (muli : (⟨S16384x1, .i32⟩ : BufTy).Contents (Elt F) → (⟨S16384x1, .i32⟩ : BufTy).Contents (Elt F) → (⟨S16384x1, .i32⟩ : BufTy).Contents (Elt F)),
    nullary main_v8 (iotaInDim S9 32 0),
    unary main_v8 main_v9 (broadcastInDim S1x9 ![1] bcast_S9_S1x9_1 : (⟨S9, .i32⟩ : BufTy).Contents (Elt F) → (⟨S1x9, .i32⟩ : BufTy).Contents (Elt F)),
    unary main_v7 main_v10 (broadcastInDim S16384x9 ![0, 1] bcast_S16384x1_S16384x9_0_1 : (⟨S16384x1, .i32⟩ : BufTy).Contents (Elt F) → (⟨S16384x9, .i32⟩ : BufTy).Contents (Elt F)),
    unary main_v9 main_v11 (broadcastInDim S16384x9 ![0, 1] bcast_S1x9_S16384x9_0_1 : (⟨S1x9, .i32⟩ : BufTy).Contents (Elt F) → (⟨S16384x9, .i32⟩ : BufTy).Contents (Elt F)),
    binary main_v10 main_v11 main_v12 (addi : (⟨S16384x9, .i32⟩ : BufTy).Contents (Elt F) → (⟨S16384x9, .i32⟩ : BufTy).Contents (Elt F) → (⟨S16384x9, .i32⟩ : BufTy).Contents (Elt F)),
    nullary main_c_1 (constantI S_ 32 0#32),
    unary main_c_1 main_v13 (broadcastInDim S16384x9 ![] bcast_S_S16384x9 : (⟨S_, .i32⟩ : BufTy).Contents (Elt F) → (⟨S16384x9, .i32⟩ : BufTy).Contents (Elt F)),
    binary main_v12 main_v13 main_v14 (cmpi .slt : (⟨S16384x9, .i32⟩ : BufTy).Contents (Elt F) → (⟨S16384x9, .i32⟩ : BufTy).Contents (Elt F) → (⟨S16384x9, .i1⟩ : BufTy).Contents (Elt F)),
    nullary main_c_2 (constantI S_ 32 16392#32),
    unary main_c_2 main_v15 (broadcastInDim S16384x9 ![] bcast_S_S16384x9 : (⟨S_, .i32⟩ : BufTy).Contents (Elt F) → (⟨S16384x9, .i32⟩ : BufTy).Contents (Elt F)),
    binary main_v12 main_v15 main_v16 (addi : (⟨S16384x9, .i32⟩ : BufTy).Contents (Elt F) → (⟨S16384x9, .i32⟩ : BufTy).Contents (Elt F) → (⟨S16384x9, .i32⟩ : BufTy).Contents (Elt F)),
    ternary main_v14 main_v16 main_v12 main_v17 (select : (⟨S16384x9, .i1⟩ : BufTy).Contents (Elt F) → (⟨S16384x9, .i32⟩ : BufTy).Contents (Elt F) → (⟨S16384x9, .i32⟩ : BufTy).Contents (Elt F) → (⟨S16384x9, .i32⟩ : BufTy).Contents (Elt F)),
    unary main_v17 main_v18 (broadcastInDim S16384x9x1 ![0, 1] bcast_S16384x9_S16384x9x1_0_1 : (⟨S16384x9, .i32⟩ : BufTy).Contents (Elt F) → (⟨S16384x9x1, .i32⟩ : BufTy).Contents (Elt F)) ]

/-- Stretch B: the windows gathered, the channel axis moved last, channel 0 dropped, taps and channels flattened. -/
abbrev opsB : List (HloOp τ sig (Elt F)) :=
  [ binary main_v3 main_v18 main_v19 ((fun x i => Host.gather gather_S32x16x16392_S16384x9x1_S32x16x16384x9_01_2_n_n_2_2_32161 x i) : (⟨S32x16x16392, .f32⟩ : BufTy).Contents (Elt F) → (⟨S16384x9x1, .i32⟩ : BufTy).Contents (Elt F) → (⟨S32x16x16384x9, .f32⟩ : BufTy).Contents (Elt F)),
    unary main_v19 main_v20 ((transpose S32x16384x9x16 [0, 2, 3, 1] · transposes_S32x16x16384x9_S32x16384x9x16_0_2_3_1) : (⟨S32x16x16384x9, .f32⟩ : BufTy).Contents (Elt F) → (⟨S32x16384x9x16, .f32⟩ : BufTy).Contents (Elt F)),
    unary main_v20 main_v21 ((extractStridedSlice S32x16384x9x15 ![0, 0, 0, 1] · slices_S32x16384x9x16_S32x16384x9x15_0_0_0_1) : (⟨S32x16384x9x16, .f32⟩ : BufTy).Contents (Elt F) → (⟨S32x16384x9x15, .f32⟩ : BufTy).Contents (Elt F)),
    reshape main_v21 main_v22 rfl shapeCasts_S32x16384x9x15_S32x16384x135 ]

/-- Stretch C: the sum of squares of a window, one added, the square root, placed in front of the window. -/
abbrev opsC : List (HloOp τ sig (Elt F)) :=
  [ binary main_v22 main_v22 main_v23 (mulf : (⟨S32x16384x135, .f32⟩ : BufTy).Contents (Elt F) → (⟨S32x16384x135, .f32⟩ : BufTy).Contents (Elt F) → (⟨S32x16384x135, .f32⟩ : BufTy).Contents (Elt F)),
    nullary main_cst_3 (constant S_ .f32 0x00000000#32),
    binary main_v23 main_cst_3 main_v24 ((fun x v => Host.reduceAdd x v reducesTo_S32x16384x135_S32x16384_d2 h_S_) : (⟨S32x16384x135, .f32⟩ : BufTy).Contents (Elt F) → (⟨S_, .f32⟩ : BufTy).Contents (Elt F) → (⟨S32x16384, .f32⟩ : BufTy).Contents (Elt F)),
    unary main_v24 main_v25 (broadcastInDim S32x16384x1 ![0, 1] bcast_S32x16384_S32x16384x1_0_1 : (⟨S32x16384, .f32⟩ : BufTy).Contents (Elt F) → (⟨S32x16384x1, .f32⟩ : BufTy).Contents (Elt F)),
    nullary main_cst_4 (constant S_ .f32 0x3F800000#32),
    unary main_cst_4 main_v26 (broadcastInDim S32x16384x1 ![] bcast_S_S32x16384x1 : (⟨S_, .f32⟩ : BufTy).Contents (Elt F) → (⟨S32x16384x1, .f32⟩ : BufTy).Contents (Elt F)),
    binary main_v26 main_v25 main_v27 (addf : (⟨S32x16384x1, .f32⟩ : BufTy).Contents (Elt F) → (⟨S32x16384x1, .f32⟩ : BufTy).Contents (Elt F) → (⟨S32x16384x1, .f32⟩ : BufTy).Contents (Elt F)),
    unary main_v27 main_v28 (Host.sqrt : (⟨S32x16384x1, .f32⟩ : BufTy).Contents (Elt F) → (⟨S32x16384x1, .f32⟩ : BufTy).Contents (Elt F)),
    binary main_v28 main_v22 main_v29 ((fun a b => concatenate S32x16384x136 2 [⟨S32x16384x1, a⟩, ⟨S32x16384x135, b⟩] concatenates_S32x16384x1_S32x16384x135_S32x16384x136_d2) : (⟨S32x16384x1, .f32⟩ : BufTy).Contents (Elt F) → (⟨S32x16384x135, .f32⟩ : BufTy).Contents (Elt F) → (⟨S32x16384x136, .f32⟩ : BufTy).Contents (Elt F)) ]

/-- Stretch D: the contraction with the weights, the bias added, the maximum with zero. -/
abbrev opsD : List (HloOp τ sig (Elt F)) :=
  [ binary main_v29 main_arg1 main_v30 ((fun l r => Host.dotGeneral dot_S32x16384x136_S63x136_S32x16384x63_2_1_01_0_n_n none l r) : (⟨S32x16384x136, .f32⟩ : BufTy).Contents (Elt F) → (⟨S63x136, .f32⟩ : BufTy).Contents (Elt F) → (⟨S32x16384x63, .f32⟩ : BufTy).Contents (Elt F)),
    unary main_arg2 main_v31 (broadcastInDim S1x1x63 ![2] bcast_S63_S1x1x63_2 : (⟨S63, .f32⟩ : BufTy).Contents (Elt F) → (⟨S1x1x63, .f32⟩ : BufTy).Contents (Elt F)),
    unary main_v31 main_v32 (broadcastInDim S32x16384x63 ![0, 1, 2] bcast_S1x1x63_S32x16384x63_0_1_2 : (⟨S1x1x63, .f32⟩ : BufTy).Contents (Elt F) → (⟨S32x16384x63, .f32⟩ : BufTy).Contents (Elt F)),
    binary main_v30 main_v32 main_v33 (addf : (⟨S32x16384x63, .f32⟩ : BufTy).Contents (Elt F) → (⟨S32x16384x63, .f32⟩ : BufTy).Contents (Elt F) → (⟨S32x16384x63, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x16384x63, .f32⟩) main_call0_v0) (broadcastInDim S32x16384x63 ![] bcast_S_S32x16384x63),
    TRef.binary (TRef.of (T := ⟨S32x16384x63, .f32⟩) main_v33) (TRef.of (T := ⟨S32x16384x63, .f32⟩) main_call0_v0) (TRef.of (T := ⟨S32x16384x63, .f32⟩) main_v34) maximumf ]

/-- Stretch E: the sum of squares of the hidden units, one added, the square root, placed in front, rows and positions swapped. -/
abbrev opsE : List (HloOp τ sig (Elt F)) :=
  [ binary main_v34 main_v34 main_v35 (mulf : (⟨S32x16384x63, .f32⟩ : BufTy).Contents (Elt F) → (⟨S32x16384x63, .f32⟩ : BufTy).Contents (Elt F) → (⟨S32x16384x63, .f32⟩ : BufTy).Contents (Elt F)),
    nullary main_cst_5 (constant S_ .f32 0x00000000#32),
    binary main_v35 main_cst_5 main_v36 ((fun x v => Host.reduceAdd x v reducesTo_S32x16384x63_S32x16384_d2 h_S_) : (⟨S32x16384x63, .f32⟩ : BufTy).Contents (Elt F) → (⟨S_, .f32⟩ : BufTy).Contents (Elt F) → (⟨S32x16384, .f32⟩ : BufTy).Contents (Elt F)),
    unary main_v36 main_v37 (broadcastInDim S32x16384x1 ![0, 1] bcast_S32x16384_S32x16384x1_0_1 : (⟨S32x16384, .f32⟩ : BufTy).Contents (Elt F) → (⟨S32x16384x1, .f32⟩ : BufTy).Contents (Elt F)),
    nullary main_cst_6 (constant S_ .f32 0x3F800000#32),
    unary main_cst_6 main_v38 (broadcastInDim S32x16384x1 ![] bcast_S_S32x16384x1 : (⟨S_, .f32⟩ : BufTy).Contents (Elt F) → (⟨S32x16384x1, .f32⟩ : BufTy).Contents (Elt F)),
    binary main_v38 main_v37 main_v39 (addf : (⟨S32x16384x1, .f32⟩ : BufTy).Contents (Elt F) → (⟨S32x16384x1, .f32⟩ : BufTy).Contents (Elt F) → (⟨S32x16384x1, .f32⟩ : BufTy).Contents (Elt F)),
    unary main_v39 main_v40 (Host.sqrt : (⟨S32x16384x1, .f32⟩ : BufTy).Contents (Elt F) → (⟨S32x16384x1, .f32⟩ : BufTy).Contents (Elt F)),
    binary main_v40 main_v34 main_v41 ((fun a b => concatenate S32x16384x64 2 [⟨S32x16384x1, a⟩, ⟨S32x16384x63, b⟩] concatenates_S32x16384x1_S32x16384x63_S32x16384x64_d2) : (⟨S32x16384x1, .f32⟩ : BufTy).Contents (Elt F) → (⟨S32x16384x63, .f32⟩ : BufTy).Contents (Elt F) → (⟨S32x16384x64, .f32⟩ : BufTy).Contents (Elt F)),
    unary main_v41 main_v42 ((transpose S32x64x16384 [0, 2, 1] · transposes_S32x16384x64_S32x64x16384_0_2_1) : (⟨S32x16384x64, .f32⟩ : BufTy).Contents (Elt F) → (⟨S32x64x16384, .f32⟩ : BufTy).Contents (Elt F)) ]

/-- @main's 54 operations, in order. -/
abbrev ops : List (HloOp τ sig (Elt F)) := opsA ++ (opsB ++ (opsC ++ (opsD ++ opsE)))

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole program, stretch by stretch. -/
theorem after_ops (V : Valuation τ sig (Elt F)) :
    after (ops (F := F)) V = after opsE (after opsD (after opsC (after opsB (after opsA V)))) := by
  simp only [ops, after_append]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub ..⟩

/-- On every device, from any memory with zero counters: every weakly fair execution of @main terminates with each
    buffer at the fold of the 54 operations over the launch contents. -/
theorem run_raw (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefValue

end
-- ==== Proof.RefStages.lean ====
/-
  The five stretches of the reference program as five functions of what each reads, and the fold of each stretch over
  an ARBITRARY valuation at the buffers later stretches read: the stretch's function of the valuation at its inputs,
  and the valuation itself at the three arguments. Composed, the whole program's result is one nested application.
-/
import proofs.«135288_j14302241096029_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The five functions -/

/-- The margin: four positions of the origin of the hyperboloid — one in channel 0, zero in the fifteen others. -/
def padBlock : (⟨S32x16x4, .f32⟩ : BufTy).Contents (Elt F) :=
  concatenate S32x16x4 1 [⟨S32x1x4, broadcastInDim S32x1x4 ![] bcast_S_S32x1x4 (constant S_ .f32 0x3F800000#32)⟩,
    ⟨S32x15x4, broadcastInDim S32x15x4 ![] bcast_S_S32x15x4 (constant S_ .f32 0x00000000#32)⟩] concatenates_S32x1x4_S32x15x4_S32x16x4_d1

/-- The input between two margins along the last axis. -/
def padRef (x : (⟨S32x16x16384, .f32⟩ : BufTy).Contents (Elt F)) : (⟨S32x16x16392, .f32⟩ : BufTy).Contents (Elt F) :=
  concatenate S32x16x16392 2 [⟨S32x16x4, padBlock⟩, ⟨S32x16x16384, x⟩, ⟨S32x16x4, padBlock⟩]
    concatenates_S32x16x4_S32x16x16384_S32x16x4_S32x16x16392_d2

/-- The table `l * 1 + j` over `l < 16384`, `j < 9`, as 32-bit words. -/
def sumTable : (⟨S16384x9, .i32⟩ : BufTy).Contents (Elt F) :=
  addi (broadcastInDim S16384x9 ![0, 1] bcast_S16384x1_S16384x9_0_1
      (muli (broadcastInDim S16384x1 ![0] bcast_S16384_S16384x1_0 (iotaInDim S16384 32 0))
        (broadcastInDim S16384x1 ![] bcast_S_S16384x1 (constantI S_ 32 1#32))))
    (broadcastInDim S16384x9 ![0, 1] bcast_S1x9_S16384x9_0_1 (broadcastInDim S1x9 ![1] bcast_S9_S1x9_1 (iotaInDim S9 32 0)))

/-- The table of window positions: an entry of `sumTable` below zero (there is none) moved up by the padded length. -/
def idxTable : (⟨S16384x9x1, .i32⟩ : BufTy).Contents (Elt F) :=
  broadcastInDim S16384x9x1 ![0, 1] bcast_S16384x9_S16384x9x1_0_1
    (select (cmpi .slt (sumTable (F := F)) (broadcastInDim S16384x9 ![] bcast_S_S16384x9 (constantI S_ 32 0#32)))
      (addi (sumTable (F := F)) (broadcastInDim S16384x9 ![] bcast_S_S16384x9 (constantI S_ 32 16392#32))) (sumTable (F := F)))

/-- The windows: the padded array gathered at the table's positions, the channel axis moved last, channel 0 dropped,
    the nine taps and fifteen channels flattened tap-major. -/
def windowRef (p : (⟨S32x16x16392, .f32⟩ : BufTy).Contents (Elt F)) (i : (⟨S16384x9x1, .i32⟩ : BufTy).Contents (Elt F)) : (⟨S32x16384x135, .f32⟩ : BufTy).Contents (Elt F) :=
  shapeCast S32x16384x135
    (extractStridedSlice S32x16384x9x15 ![0, 0, 0, 1]
      (transpose S32x16384x9x16 [0, 2, 3, 1] (Host.gather gather_S32x16x16392_S16384x9x1_S32x16x16384x9_01_2_n_n_2_2_32161 p i)
        transposes_S32x16x16384x9_S32x16384x9x16_0_2_3_1)
      slices_S32x16384x9x16_S32x16384x9x15_0_0_0_1)
    shapeCasts_S32x16384x9x15_S32x16384x135

/-- The window's time coordinate: the square root of one plus the sum of the squares. -/
def timeRef (w : (⟨S32x16384x135, .f32⟩ : BufTy).Contents (Elt F)) : (⟨S32x16384x1, .f32⟩ : BufTy).Contents (Elt F) :=
  Host.sqrt (addf (broadcastInDim S32x16384x1 ![] bcast_S_S32x16384x1 (constant S_ .f32 0x3F800000#32))
    (broadcastInDim S32x16384x1 ![0, 1] bcast_S32x16384_S32x16384x1_0_1
      (Host.reduceAdd (mulf w w) (constant S_ .f32 0x00000000#32) reducesTo_S32x16384x135_S32x16384_d2 h_S_)))

/-- The window's point: its time coordinate, then its 135 space coordinates. -/
def pointRef (w : (⟨S32x16384x135, .f32⟩ : BufTy).Contents (Elt F)) : (⟨S32x16384x136, .f32⟩ : BufTy).Contents (Elt F) :=
  concatenate S32x16384x136 2 [⟨S32x16384x1, timeRef w⟩, ⟨S32x16384x135, w⟩] concatenates_S32x16384x1_S32x16384x135_S32x16384x136_d2

/-- The hidden units: the contraction of the point with the weights, the bias added, clipped below at zero. -/
def hiddenRef (p : (⟨S32x16384x136, .f32⟩ : BufTy).Contents (Elt F)) (wt : (⟨S63x136, .f32⟩ : BufTy).Contents (Elt F)) (b : (⟨S63, .f32⟩ : BufTy).Contents (Elt F)) : (⟨S32x16384x63, .f32⟩ : BufTy).Contents (Elt F) :=
  maximumf
    (addf (Host.dotGeneral dot_S32x16384x136_S63x136_S32x16384x63_2_1_01_0_n_n none p wt)
      (broadcastInDim S32x16384x63 ![0, 1, 2] bcast_S1x1x63_S32x16384x63_0_1_2 (broadcastInDim S1x1x63 ![2] bcast_S63_S1x1x63_2 b)))
    (broadcastInDim S32x16384x63 ![] bcast_S_S32x16384x63 (constant S_ .f32 0x00000000#32))

/-- The output: the hidden units' time coordinate in front of them, then rows and positions swapped. -/
def outRef (h : (⟨S32x16384x63, .f32⟩ : BufTy).Contents (Elt F)) : (⟨S32x64x16384, .f32⟩ : BufTy).Contents (Elt F) :=
  transpose S32x64x16384 [0, 2, 1]
    (concatenate S32x16384x64 2 [⟨S32x16384x1,
        Host.sqrt (addf (broadcastInDim S32x16384x1 ![] bcast_S_S32x16384x1 (constant S_ .f32 0x3F800000#32))
          (broadcastInDim S32x16384x1 ![0, 1] bcast_S32x16384_S32x16384x1_0_1
            (Host.reduceAdd (mulf h h) (constant S_ .f32 0x00000000#32) reducesTo_S32x16384x63_S32x16384_d2 h_S_)))⟩,
      ⟨S32x16384x63, h⟩] concatenates_S32x16384x1_S32x16384x63_S32x16384x64_d2)
    transposes_S32x16384x64_S32x64x16384_0_2_1

/-! ## Each stretch's fold over an arbitrary valuation -/

variable (W : Valuation τ sig (Elt F))

theorem afterA_v3 : after (opsA (F := F)) W (Proc.devRef .tc main_v3) = padRef (W (Proc.devRef .tc main_arg0)) := by
  after_results_simp <;> rfl
theorem afterA_v18 : after (opsA (F := F)) W (Proc.devRef .tc main_v18) = idxTable := by
  after_results_simp <;> rfl
theorem afterA_arg0 : after (opsA (F := F)) W (Proc.devRef .tc main_arg0) = W (Proc.devRef .tc main_arg0) := by after_results_simp
theorem afterA_arg1 : after (opsA (F := F)) W (Proc.devRef .tc main_arg1) = W (Proc.devRef .tc main_arg1) := by after_results_simp
theorem afterA_arg2 : after (opsA (F := F)) W (Proc.devRef .tc main_arg2) = W (Proc.devRef .tc main_arg2) := by after_results_simp

theorem afterB_v22 : after (opsB (F := F)) W (Proc.devRef .tc main_v22)
    = windowRef (W (Proc.devRef .tc main_v3)) (W (Proc.devRef .tc main_v18)) := by
  after_results_simp <;> rfl
theorem afterB_arg0 : after (opsB (F := F)) W (Proc.devRef .tc main_arg0) = W (Proc.devRef .tc main_arg0) := by after_results_simp
theorem afterB_arg1 : after (opsB (F := F)) W (Proc.devRef .tc main_arg1) = W (Proc.devRef .tc main_arg1) := by after_results_simp
theorem afterB_arg2 : after (opsB (F := F)) W (Proc.devRef .tc main_arg2) = W (Proc.devRef .tc main_arg2) := by after_results_simp

theorem afterC_v29 : after (opsC (F := F)) W (Proc.devRef .tc main_v29) = pointRef (W (Proc.devRef .tc main_v22)) := by
  after_results_simp <;> rfl
theorem afterC_arg0 : after (opsC (F := F)) W (Proc.devRef .tc main_arg0) = W (Proc.devRef .tc main_arg0) := by after_results_simp
theorem afterC_arg1 : after (opsC (F := F)) W (Proc.devRef .tc main_arg1) = W (Proc.devRef .tc main_arg1) := by after_results_simp
theorem afterC_arg2 : after (opsC (F := F)) W (Proc.devRef .tc main_arg2) = W (Proc.devRef .tc main_arg2) := by after_results_simp

theorem afterD_v34 : after (opsD (F := F)) W (Proc.devRef .tc main_v34)
    = hiddenRef (W (Proc.devRef .tc main_v29)) (W (Proc.devRef .tc main_arg1)) (W (Proc.devRef .tc main_arg2)) := by
  after_results_simp <;> rfl
theorem afterD_arg0 : after (opsD (F := F)) W (Proc.devRef .tc main_arg0) = W (Proc.devRef .tc main_arg0) := by after_results_simp
theorem afterD_arg1 : after (opsD (F := F)) W (Proc.devRef .tc main_arg1) = W (Proc.devRef .tc main_arg1) := by after_results_simp
theorem afterD_arg2 : after (opsD (F := F)) W (Proc.devRef .tc main_arg2) = W (Proc.devRef .tc main_arg2) := by after_results_simp

theorem afterE_v42 : after (opsE (F := F)) W (Proc.devRef .tc main_v42) = outRef (W (Proc.devRef .tc main_v34)) := by
  after_results_simp <;> rfl
theorem afterE_arg0 : after (opsE (F := F)) W (Proc.devRef .tc main_arg0) = W (Proc.devRef .tc main_arg0) := by after_results_simp
theorem afterE_arg1 : after (opsE (F := F)) W (Proc.devRef .tc main_arg1) = W (Proc.devRef .tc main_arg1) := by after_results_simp
theorem afterE_arg2 : after (opsE (F := F)) W (Proc.devRef .tc main_arg2) = W (Proc.devRef .tc main_arg2) := by after_results_simp

/-! ## The whole program -/

/-- The result buffer after the 54 operations: the five functions nested, over the valuation at the three arguments. -/
theorem after_ops_v42 : after (ops (F := F)) W (Proc.devRef .tc main_v42)
    = outRef (hiddenRef (pointRef (windowRef (padRef (W (Proc.devRef .tc main_arg0))) idxTable))
        (W (Proc.devRef .tc main_arg1)) (W (Proc.devRef .tc main_arg2))) := by
  rw [after_ops, afterE_v42, afterD_v34, afterC_v29, afterC_arg1, afterC_arg2, afterB_v22, afterB_arg1, afterB_arg2,
    afterA_v3, afterA_v18, afterA_arg1, afterA_arg2]

theorem after_ops_arg0 : after (ops (F := F)) W (Proc.devRef .tc main_arg0) = W (Proc.devRef .tc main_arg0) := by
  rw [after_ops, afterE_arg0, afterD_arg0, afterC_arg0, afterB_arg0, afterA_arg0]
theorem after_ops_arg1 : after (ops (F := F)) W (Proc.devRef .tc main_arg1) = W (Proc.devRef .tc main_arg1) := by
  rw [after_ops, afterE_arg1, afterD_arg1, afterC_arg1, afterB_arg1, afterA_arg1]
theorem after_ops_arg2 : after (ops (F := F)) W (Proc.devRef .tc main_arg2) = W (Proc.devRef .tc main_arg2) := by
  rw [after_ops, afterE_arg2, afterD_arg2, afterC_arg2, afterB_arg2, afterA_arg2]

end Cert.ReferenceIdeal.RefValue

end
-- ==== Proof.RefPad.lean ====
/-
  The padded input read at an index, over the extended reals: in the fifteen space channels it is the specification's
  `padded` — zero in the two margins of width four, the input four positions back between them.
-/
import proofs.«135288_j14302241096029_1_alg».proof.Proof.RefStages
import proofs.«135288_j14302241096029_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LorentzLayer

/-- In the space channels the margin block is zero. -/
theorem padBlock_space (t : Fin 32) (c : Fin 15) (q : Fin 4) :
    padBlock (F := Ideal) (ix3 t (⟨c.val + 1, by omega⟩ : Fin 16) q) = 0 := by
  unfold padBlock
  refine (concatenate_pair_apply_right (t := S32x16x4) (s₁ := S32x1x4) (s₂ := S32x15x4) 1 _ _ _
    (ix3 t (⟨c.val + 1, by omega⟩ : Fin 16) q) rfl rfl (ix3 t c q) (fun b hb => ?_) ?_).trans ?_
  · match b with
    | ⟨0, _⟩ => rfl
    | ⟨1, _⟩ => exact absurd rfl hb
    | ⟨2, _⟩ => rfl
  · rfl
  · exact Ideal.ofBits_zero_f32

/-- In the space channels the padded array is the specification's. -/
theorem padRef_space (x : (⟨3, ![32, 16, 16384]⟩ : Shape).Idx → EReal) (t : Fin 32) (c : Fin 15) (p : Fin 16392) :
    padRef (F := Ideal) x (ix3 t (⟨c.val + 1, by omega⟩ : Fin 16) p) = padded x t c.val p.val := by
  have hc := c.isLt
  have hp := p.isLt
  unfold padRef
  by_cases h1 : p.val < 4
  · rw [padded_margin x t c.val p.val (Or.inl h1)]
    refine (concatenate_apply_piece (t := S32x16x16392) 2
      [⟨S32x16x4, padBlock (F := Ideal)⟩, ⟨S32x16x16384, x⟩, ⟨S32x16x4, padBlock (F := Ideal)⟩] _ (ix3 t (⟨c.val + 1, by omega⟩ : Fin 16) p) 0 (by show (0 : Nat) < 3; omega) S32x16x4 padBlock rfl rfl 0 rfl
      (ix3 t (⟨c.val + 1, by omega⟩ : Fin 16) (⟨p.val, h1⟩ : Fin 4)) (fun b hb => ?_) ?_).trans (padBlock_space t c ⟨p.val, h1⟩)
    · match b with
      | ⟨0, _⟩ => rfl
      | ⟨1, _⟩ => rfl
      | ⟨2, _⟩ => exact absurd rfl hb
    · show 0 + p.val = p.val
      omega
  · by_cases h2 : p.val < 16388
    · refine (concatenate_apply_piece (t := S32x16x16392) 2
      [⟨S32x16x4, padBlock (F := Ideal)⟩, ⟨S32x16x16384, x⟩, ⟨S32x16x4, padBlock (F := Ideal)⟩] _ (ix3 t (⟨c.val + 1, by omega⟩ : Fin 16) p) 1 (by show (1 : Nat) < 3; omega) S32x16x16384 x rfl rfl 4 rfl
        (ix3 t (⟨c.val + 1, by omega⟩ : Fin 16) (⟨p.val - 4, by omega⟩ : Fin 16384)) (fun b hb => ?_) ?_).trans
        (padded_inside x t c.val p.val hc (by omega) h2 _ _ rfl rfl).symm
      · match b with
        | ⟨0, _⟩ => rfl
        | ⟨1, _⟩ => rfl
        | ⟨2, _⟩ => exact absurd rfl hb
      · show 4 + (p.val - 4) = p.val
        omega
    · rw [padded_margin x t c.val p.val (Or.inr (by omega))]
      refine (concatenate_apply_piece (t := S32x16x16392) 2
      [⟨S32x16x4, padBlock (F := Ideal)⟩, ⟨S32x16x16384, x⟩, ⟨S32x16x4, padBlock (F := Ideal)⟩] _ (ix3 t (⟨c.val + 1, by omega⟩ : Fin 16) p) 2 (by show (2 : Nat) < 3; omega) S32x16x4 padBlock rfl rfl 16388 rfl
        (ix3 t (⟨c.val + 1, by omega⟩ : Fin 16) (⟨p.val - 16388, by omega⟩ : Fin 4)) (fun b hb => ?_) ?_).trans
        (padBlock_space t c ⟨p.val - 16388, by omega⟩)
      · match b with
        | ⟨0, _⟩ => rfl
        | ⟨1, _⟩ => rfl
        | ⟨2, _⟩ => exact absurd rfl hb
      · show 16388 + (p.val - 16388) = p.val
        omega

end Cert.ReferenceIdeal.RefValue

end
-- ==== Proof.RefIndex.lean ====
/-
  The table of window positions read at an index — entry (l, j) is the word of l + j, which is never negative and, read
  back as a signed integer, is l + j — and the gather of the padded array at that table: window (l, j) of channel c is
  the padded array at position l + j.
-/
import proofs.«135288_j14302241096029_1_alg».proof.Proof.RefStages
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## Words below 2^31 -/

theorem toNat_ofNat_small (n : Nat) (h : n < 2147483648) : (BitVec.ofNat 32 n).toNat = n := by
  rw [BitVec.toNat_ofNat]; exact Nat.mod_eq_of_lt (by omega)

/-- A word below 2^31, read as a signed integer, is itself. -/
theorem toInt_toNat_ofNat (n : Nat) (h : n < 2147483648) : (BitVec.ofNat 32 n).toInt.toNat = n := by
  rw [BitVec.toInt_eq_toNat_of_lt (by rw [toNat_ofNat_small n h]; omega), toNat_ofNat_small n h]
  exact Int.toNat_natCast n

/-- A word below 2^31 is not below zero as a signed integer. -/
theorem cmpi_slt_zero (n : Nat) (h : n < 2147483648) : IntOp.cmpi .slt (BitVec.ofNat 32 n) 0#32 = 0#1 := by
  have h2 : (BitVec.ofNat 32 n).slt 0#32 = false := by
    rw [BitVec.slt_zero_eq_msb, BitVec.msb_eq_false_iff_two_mul_lt, toNat_ofNat_small n h]; omega
  show BitVec.ofBool ((BitVec.ofNat 32 n).slt 0#32) = 0#1
  rw [h2]; rfl

/-! ## The table -/

/-- Entry (l, j) of the sum table is the word of l + j. -/
theorem sumTable_apply (l : Fin 16384) (j : Fin 9) :
    sumTable (F := Ideal) (ix2 l j) = BitVec.ofNat 32 (l.val + j.val) := by
  show IntOp.addi (IntOp.muli (BitVec.ofNat 32 l.val) 1#32) (BitVec.ofNat 32 j.val) = _
  show BitVec.ofNat 32 l.val * 1#32 + BitVec.ofNat 32 j.val = _
  rw [BitVec.mul_one, ← BitVec.ofNat_add]

/-- Entry (l, j, 0) of the table of positions is the word of l + j. -/
theorem idxTable_apply (l : Fin 16384) (j : Fin 9) :
    idxTable (F := Ideal) (ix3 l j (0 : Fin 1)) = BitVec.ofNat 32 (l.val + j.val) := by
  have hl := l.isLt
  have hj := j.isLt
  unfold idxTable
  refine (broadcastInDim_apply _ _ _ (ix3 l j (0 : Fin 1)) (ix2 l j) (fun a => ?_)).trans ?_
  · match a with
    | ⟨0, _⟩ => rfl
    | ⟨1, _⟩ => rfl
  · show Scalar.select (IntOp.cmpi .slt (sumTable (F := Ideal) (ix2 l j)) 0#32)
      (IntOp.addi (sumTable (F := Ideal) (ix2 l j)) 16392#32) (sumTable (F := Ideal) (ix2 l j)) = _
    rw [sumTable_apply, cmpi_slt_zero _ (by omega), select_zero]

/-! ## The gather -/

/-- Window (l, j) of channel c of the gathered array is the operand at the table's entry (l, j, 0), read signed and
    clamped to the last position. -/
theorem gather_apply (p : (⟨3, ![32, 16, 16392]⟩ : Shape).Idx → EReal) (i : IVec ⟨3, ![16384, 9, 1]⟩ 32)
    (t : Fin 32) (c : Fin 16) (l : Fin 16384) (j : Fin 9) :
    Host.gather gather_S32x16x16392_S16384x9x1_S32x16x16384x9_01_2_n_n_2_2_32161 p i (ix4 t c l j)
      = p (ix3 t c (⟨min (i (ix3 l j (0 : Fin 1))).toInt.toNat 16391, by omega⟩ : Fin 16392)) := by
  unfold Host.gather
  congr 1
  funext a
  refine Fin.ext ?_
  have hsi : (gather_S32x16x16392_S16384x9x1_S32x16x16384x9_01_2_n_n_2_2_32161).siIdx (ix4 t c l j)
      ⟨List.idxOf (2 : Fin 3) (gather_S32x16x16392_S16384x9x1_S32x16x16384x9_01_2_n_n_2_2_32161).startIndexMap, List.idxOf_lt_length_iff.2 (List.mem_singleton.mpr rfl)⟩
        = ix3 l j (0 : Fin 1) := by
    funext b; refine Fin.ext ?_
    match b with
    | ⟨0, _⟩ => rfl
    | ⟨1, _⟩ => rfl
    | ⟨2, _⟩ => rfl
  match a with
  | ⟨0, _⟩ =>
    show (gather_S32x16x16392_S16384x9x1_S32x16x16384x9_01_2_n_n_2_2_32161).start (ix4 t c l j) i 0 + (gather_S32x16x16392_S16384x9x1_S32x16x16384x9_01_2_n_n_2_2_32161).batchCoord (ix4 t c l j) 0 + (gather_S32x16x16392_S16384x9x1_S32x16x16384x9_01_2_n_n_2_2_32161).offCoord (ix4 t c l j) 0 = t.val
    rw [GatherDims.batchCoord_eq_zero _ _ _ List.not_mem_nil]
    unfold GatherDims.start
    rw [dif_neg (show ¬ (0 : Fin 3) ∈ (gather_S32x16x16392_S16384x9x1_S32x16x16384x9_01_2_n_n_2_2_32161).startIndexMap by decide)]
    unfold GatherDims.offCoord
    rw [dif_pos (show (0 : Fin 3) ∈ (gather_S32x16x16392_S16384x9x1_S32x16x16384x9_01_2_n_n_2_2_32161).sKept by decide)]
    simp only [Nat.zero_add, Nat.add_zero]
    rfl
  | ⟨1, _⟩ =>
    show (gather_S32x16x16392_S16384x9x1_S32x16x16384x9_01_2_n_n_2_2_32161).start (ix4 t c l j) i 1 + (gather_S32x16x16392_S16384x9x1_S32x16x16384x9_01_2_n_n_2_2_32161).batchCoord (ix4 t c l j) 1 + (gather_S32x16x16392_S16384x9x1_S32x16x16384x9_01_2_n_n_2_2_32161).offCoord (ix4 t c l j) 1 = c.val
    rw [GatherDims.batchCoord_eq_zero _ _ _ List.not_mem_nil]
    unfold GatherDims.start
    rw [dif_neg (show ¬ (1 : Fin 3) ∈ (gather_S32x16x16392_S16384x9x1_S32x16x16384x9_01_2_n_n_2_2_32161).startIndexMap by decide)]
    unfold GatherDims.offCoord
    rw [dif_pos (show (1 : Fin 3) ∈ (gather_S32x16x16392_S16384x9x1_S32x16x16384x9_01_2_n_n_2_2_32161).sKept by decide)]
    simp only [Nat.zero_add, Nat.add_zero]
    rfl
  | ⟨2, _⟩ =>
    show (gather_S32x16x16392_S16384x9x1_S32x16x16384x9_01_2_n_n_2_2_32161).start (ix4 t c l j) i 2 + (gather_S32x16x16392_S16384x9x1_S32x16x16384x9_01_2_n_n_2_2_32161).batchCoord (ix4 t c l j) 2 + (gather_S32x16x16392_S16384x9x1_S32x16x16384x9_01_2_n_n_2_2_32161).offCoord (ix4 t c l j) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S32x16x16392_S16384x9x1_S32x16x16384x9_01_2_n_n_2_2_32161).startIndexMap from List.mem_singleton.mpr rfl), hsi]
    rfl

end Cert.ReferenceIdeal.RefValue

end
-- ==== Proof.RefWindow.lean ====
/-
  The windows read at an index: entry (t, l, k) of the flattened windows is the specification's `tap x t l k` — the
  space channel k % 15 of the padded input at position l + k / 15.
-/
import proofs.«135288_j14302241096029_1_alg».proof.Proof.RefPad
import proofs.«135288_j14302241096029_1_alg».proof.Proof.RefIndex

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LorentzLayer

/-- The layout chain: entry (t, l, k) of the flattened windows is the gathered array at channel k % 15 + 1, position l,
    tap k / 15, that is the operand at the table's entry for (l, k / 15). -/
theorem windowRef_read (p : (⟨3, ![32, 16, 16392]⟩ : Shape).Idx → EReal) (i : IVec ⟨3, ![16384, 9, 1]⟩ 32)
    (t : Fin 32) (l : Fin 16384) (k : Fin 135) :
    windowRef (F := Ideal) p i (ix3 t l k)
      = p (ix3 t (⟨k.val % 15 + 1, by omega⟩ : Fin 16)
          (⟨min (i (ix3 l (⟨k.val / 15, by omega⟩ : Fin 9) (0 : Fin 1))).toInt.toNat 16391, by omega⟩ : Fin 16392)) := by
  have hk := k.isLt
  unfold windowRef
  refine (shapeCast_apply _ _ (ix3 t l k)
    (ix4 t l (⟨k.val / 15, by omega⟩ : Fin 9) (⟨k.val % 15, by omega⟩ : Fin 15)) ?_).trans ?_
  · rw [Shape.rowMajor_val_four, Shape.rowMajor_val_three]
    show ((t.val * 16384 + l.val) * 9 + k.val / 15) * 15 + k.val % 15 = (t.val * 16384 + l.val) * 135 + k.val
    omega
  refine (extractStridedSlice_apply _ _ _ (ix4 t l (⟨k.val / 15, by omega⟩ : Fin 9) (⟨k.val % 15, by omega⟩ : Fin 15))
    (ix4 t l (⟨k.val / 15, by omega⟩ : Fin 9) (⟨k.val % 15 + 1, by omega⟩ : Fin 16)) (fun a => ?_)).trans ?_
  · match a with
    | ⟨0, _⟩ => show t.val = 0 + t.val; omega
    | ⟨1, _⟩ => show l.val = 0 + l.val; omega
    | ⟨2, _⟩ => show k.val / 15 = 0 + k.val / 15; omega
    | ⟨3, _⟩ => show k.val % 15 + 1 = 1 + k.val % 15; omega
  refine (transpose_apply _ _ _ (ix4 t l (⟨k.val / 15, by omega⟩ : Fin 9) (⟨k.val % 15 + 1, by omega⟩ : Fin 16))
    (ix4 t (⟨k.val % 15 + 1, by omega⟩ : Fin 16) l (⟨k.val / 15, by omega⟩ : Fin 9)) (fun b => ?_)).trans ?_
  · match b with
    | ⟨0, _⟩ => rfl
    | ⟨1, _⟩ => rfl
    | ⟨2, _⟩ => rfl
    | ⟨3, _⟩ => rfl
  exact gather_apply p i t _ l _

/-- Entry (t, l, k) of the windows of the padded input at the table of positions is the specification's tap. -/
theorem windowRef_apply (x : (⟨3, ![32, 16, 16384]⟩ : Shape).Idx → EReal) (t : Fin 32) (l : Fin 16384) (k : Fin 135) :
    windowRef (F := Ideal) (padRef (F := Ideal) x) (idxTable (F := Ideal)) (ix3 t l k) = tap x t l k := by
  have hk := k.isLt
  have hl := l.isLt
  rw [windowRef_read]
  have e : min (idxTable (F := Ideal) (ix3 l (⟨k.val / 15, by omega⟩ : Fin 9) (0 : Fin 1))).toInt.toNat 16391
      = l.val + k.val / 15 := by
    rw [idxTable_apply l (⟨k.val / 15, by omega⟩ : Fin 9)]
    show min (BitVec.ofNat 32 (l.val + k.val / 15)).toInt.toNat 16391 = _
    rw [toInt_toNat_ofNat _ (by omega)]; omega
  have hp : (⟨min (idxTable (F := Ideal) (ix3 l (⟨k.val / 15, by omega⟩ : Fin 9) (0 : Fin 1))).toInt.toNat 16391, by omega⟩ : Fin 16392)
      = ⟨l.val + k.val / 15, by omega⟩ := Fin.ext e
  rw [hp]
  exact padRef_space x t ⟨k.val % 15, by omega⟩ ⟨l.val + k.val / 15, by omega⟩

end Cert.ReferenceIdeal.RefValue

end
-- ==== Proof.RefHidden.lean ====
/-
  The last three stretches read at an index, over the extended reals. A sum of squares over the last axis, one added,
  the square root: the time coordinate of a point given by its space coordinates. The contraction with the weights is
  the sum over the 136 coordinates of the window's point; its first term is the time coordinate's, the other 135 the
  taps'. The result has the time coordinate in row 0 and hidden unit r - 1 in row r.
-/
import proofs.«135288_j14302241096029_1_alg».proof.Proof.RefWindow

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LorentzLayer

/-! ## The time coordinate of a row of space coordinates -/

/-- The sum of the squares of row (t, l), from zero. -/
theorem sumsq_read {n : Nat} (w : (⟨3, ![32, 16384, n]⟩ : Shape).Idx → EReal)
    (h' : Shape.ReducesTo ⟨3, ![32, 16384, n]⟩ [2] ⟨2, ![32, 16384]⟩) (h : Shape.Reduces ⟨3, ![32, 16384, n]⟩ [2] ⟨2, ![32, 16384]⟩)
    (hu : 0 < S_.numel) (t : Fin 32) (l : Fin 16384) :
    Host.reduceAdd (F := Ideal) (mulf (F := Ideal) (φ := .f32) w w) (constant (F := Ideal) S_ .f32 0x00000000#32) h' hu (ix2 t l)
      = ∑ k : Fin n, w (ix3 t l k) * w (ix3 t l k) := by
  simp only [Host.reduceAdd, Ideal.hostReduceAdd_def]
  rw [Ideal.hostReduceAdd_single h' h]
  rw [constant_apply, Ideal.ofBits_zero_f32, zero_add]
  show ∑ k : Fin n, mulf (F := Ideal) (φ := .f32) w w (h.lift (ix2 t l) k) = _
  refine Finset.sum_congr rfl fun k _ => ?_
  have e : h.lift (ix2 t l) k = ix3 t l k := by
    funext a; refine Fin.ext ?_
    match a with
    | ⟨0, _⟩ => rfl
    | ⟨1, _⟩ => rfl
    | ⟨2, _⟩ => rfl
  rw [e, mulf_apply]

/-- One plus that sum, under the square root. -/
theorem time_read {n : Nat} (w : (⟨3, ![32, 16384, n]⟩ : Shape).Idx → EReal)
    (h' : Shape.ReducesTo ⟨3, ![32, 16384, n]⟩ [2] ⟨2, ![32, 16384]⟩) (h : Shape.Reduces ⟨3, ![32, 16384, n]⟩ [2] ⟨2, ![32, 16384]⟩)
    (hu : 0 < S_.numel) (hb0 : S_.BroadcastsInDim S32x16384x1 (![] : Fin 0 → Fin S32x16384x1.rank))
    (hb1 : S32x16384.BroadcastsInDim S32x16384x1 (![0, 1] : Fin 2 → Fin S32x16384x1.rank)) (t : Fin 32) (l : Fin 16384) :
    Host.sqrt (F := Ideal) (φ := .f32) (addf (F := Ideal) (φ := .f32) (broadcastInDim S32x16384x1 ![] hb0 (constant (F := Ideal) S_ .f32 0x3F800000#32))
        (broadcastInDim S32x16384x1 ![0, 1] hb1
          (Host.reduceAdd (F := Ideal) (mulf (F := Ideal) (φ := .f32) w w) (constant (F := Ideal) S_ .f32 0x00000000#32) h' hu)))
      (ix3 t l (0 : Fin 1))
      = Ideal.sqrt (one + ∑ k : Fin n, w (ix3 t l k) * w (ix3 t l k)) := by
  simp only [Host.sqrt, Ideal.hostUnary_sqrt_def, addf_apply]
  have e0 : broadcastInDim S32x16384x1 ![] hb0 (constant (F := Ideal) S_ .f32 0x3F800000#32) (ix3 t l (0 : Fin 1)) = one :=
    (broadcastInDim_apply _ hb0 _ (ix3 t l (0 : Fin 1)) ix0 (fun a => a.elim0)).trans (constant_apply _ _)
  rw [e0, broadcastInDim_apply _ hb1 _ (ix3 t l (0 : Fin 1)) (ix2 t l) (fun a => by
    match a with
    | ⟨0, _⟩ => rfl
    | ⟨1, _⟩ => rfl), sumsq_read w h' h hu t l]

/-! ## The window's point -/

/-- The window's time coordinate. -/
theorem timeRef_apply (w : (⟨3, ![32, 16384, 135]⟩ : Shape).Idx → EReal) (t : Fin 32) (l : Fin 16384) :
    timeRef (F := Ideal) w (ix3 t l (0 : Fin 1)) = Ideal.sqrt (one + ∑ k : Fin 135, w (ix3 t l k) * w (ix3 t l k)) := by
  unfold timeRef
  exact time_read w _ (by decide) _ _ _ t l

/-- Coordinate 0 of the window's point is its time coordinate. -/
theorem pointRef_zero (w : (⟨3, ![32, 16384, 135]⟩ : Shape).Idx → EReal) (t : Fin 32) (l : Fin 16384) :
    pointRef (F := Ideal) w (ix3 t l (0 : Fin 136)) = timeRef (F := Ideal) w (ix3 t l (0 : Fin 1)) := by
  unfold pointRef
  refine concatenate_pair_apply_left (t := S32x16384x136) (s₁ := S32x16384x1) (s₂ := S32x16384x135) 2 _ _ _
    (ix3 t l (0 : Fin 136)) rfl (ix3 t l (0 : Fin 1)) (fun b => ?_)
  match b with
  | ⟨0, _⟩ => rfl
  | ⟨1, _⟩ => rfl
  | ⟨2, _⟩ => rfl

/-- Coordinate k + 1 of the window's point is its space coordinate k. -/
theorem pointRef_succ (w : (⟨3, ![32, 16384, 135]⟩ : Shape).Idx → EReal) (t : Fin 32) (l : Fin 16384) (k : Fin 135) :
    pointRef (F := Ideal) w (ix3 t l (⟨k.val + 1, by omega⟩ : Fin 136)) = w (ix3 t l k) := by
  unfold pointRef
  refine concatenate_pair_apply_right (t := S32x16384x136) (s₁ := S32x16384x1) (s₂ := S32x16384x135) 2 _ _ _
    (ix3 t l (⟨k.val + 1, by omega⟩ : Fin 136)) rfl rfl (ix3 t l k) (fun b hb => ?_) ?_
  · match b with
    | ⟨0, _⟩ => rfl
    | ⟨1, _⟩ => rfl
    | ⟨2, _⟩ => exact absurd rfl hb
  · rfl

/-! ## The hidden units -/

/-- The contraction read at an index: the sum over the point's 136 coordinates. -/
theorem dot_read (p : (⟨3, ![32, 16384, 136]⟩ : Shape).Idx → EReal) (wt : (⟨2, ![63, 136]⟩ : Shape).Idx → EReal)
    (t : Fin 32) (l : Fin 16384) (o : Fin 63) :
    Host.dotGeneral (F := Ideal) (φ₁ := .f32) (φ₂ := .f32) dot_S32x16384x136_S63x136_S32x16384x63_2_1_01_0_n_n none p wt (ix3 t l o)
      = ∑ k : Fin 136, p (ix3 t l k) * wt (ix2 o k) := by
  simp only [Host.dotGeneral]
  rw [Ideal.dotGeneral_apply, ← Equiv.sum_comp (contrEquiv1 dot_S32x16384x136_S63x136_S32x16384x63_2_1_01_0_n_n 136 rfl rfl).symm]
  refine Finset.sum_congr rfl fun k _ => ?_
  have c3 := contrEquiv1_symm_val dot_S32x16384x136_S63x136_S32x16384x63_2_1_01_0_n_n 136 rfl rfl k
  have a0 : ((dot_S32x16384x136_S63x136_S32x16384x63_2_1_01_0_n_n).lhsIdx (ix3 t l o) ((contrEquiv1 dot_S32x16384x136_S63x136_S32x16384x63_2_1_01_0_n_n 136 rfl rfl).symm k) (0 : Fin 3)).val = t.val := by
    unfold DotDims.lhsIdx
    rw [dif_neg (by decide), dif_pos (by decide)]; rfl
  have a1 : ((dot_S32x16384x136_S63x136_S32x16384x63_2_1_01_0_n_n).lhsIdx (ix3 t l o) ((contrEquiv1 dot_S32x16384x136_S63x136_S32x16384x63_2_1_01_0_n_n 136 rfl rfl).symm k) (1 : Fin 3)).val = l.val := by
    unfold DotDims.lhsIdx
    rw [dif_neg (by decide), dif_pos (by decide)]; rfl
  have a2 : ((dot_S32x16384x136_S63x136_S32x16384x63_2_1_01_0_n_n).lhsIdx (ix3 t l o) ((contrEquiv1 dot_S32x16384x136_S63x136_S32x16384x63_2_1_01_0_n_n 136 rfl rfl).symm k) (2 : Fin 3)).val = k.val :=
    (DotDims.lhsIdx_val_of_single dot_S32x16384x136_S63x136_S32x16384x63_2_1_01_0_n_n (cl := 2) rfl _ _).trans c3
  have b0 : ((dot_S32x16384x136_S63x136_S32x16384x63_2_1_01_0_n_n).rhsIdx (ix3 t l o) ((contrEquiv1 dot_S32x16384x136_S63x136_S32x16384x63_2_1_01_0_n_n 136 rfl rfl).symm k) (0 : Fin 2)).val = o.val := by
    unfold DotDims.rhsIdx
    rw [dif_neg (by decide), dif_pos (by decide)]; rfl
  have b1 : ((dot_S32x16384x136_S63x136_S32x16384x63_2_1_01_0_n_n).rhsIdx (ix3 t l o) ((contrEquiv1 dot_S32x16384x136_S63x136_S32x16384x63_2_1_01_0_n_n 136 rfl rfl).symm k) (1 : Fin 2)).val = k.val :=
    (DotDims.rhsIdx_val_of_single dot_S32x16384x136_S63x136_S32x16384x63_2_1_01_0_n_n (cr := 1) rfl _ _).trans c3
  have l3 : (dot_S32x16384x136_S63x136_S32x16384x63_2_1_01_0_n_n).lhsIdx (ix3 t l o) ((contrEquiv1 dot_S32x16384x136_S63x136_S32x16384x63_2_1_01_0_n_n 136 rfl rfl).symm k) = ix3 t l k := by
    funext ax; apply Fin.ext
    match ax with
    | ⟨0, _⟩ => exact a0
    | ⟨1, _⟩ => exact a1
    | ⟨2, _⟩ => exact a2
  have r3 : (dot_S32x16384x136_S63x136_S32x16384x63_2_1_01_0_n_n).rhsIdx (ix3 t l o) ((contrEquiv1 dot_S32x16384x136_S63x136_S32x16384x63_2_1_01_0_n_n 136 rfl rfl).symm k) = ix2 o k := by
    funext ax; apply Fin.ext
    match ax with
    | ⟨0, _⟩ => exact b0
    | ⟨1, _⟩ => exact b1
  rw [l3, r3]

/-- The hidden units read at an index, for any point. -/
theorem hiddenRef_read (p : (⟨3, ![32, 16384, 136]⟩ : Shape).Idx → EReal) (wt : (⟨2, ![63, 136]⟩ : Shape).Idx → EReal)
    (b : (⟨1, ![63]⟩ : Shape).Idx → EReal) (t : Fin 32) (l : Fin 16384) (o : Fin 63) :
    hiddenRef (F := Ideal) p wt b (ix3 t l o) = max (∑ k : Fin 136, p (ix3 t l k) * wt (ix2 o k) + b (ix1 o)) 0 := by
  unfold hiddenRef
  rw [maximumf_apply, addf_apply, dot_read]
  have hb : broadcastInDim S32x16384x63 ![0, 1, 2] bcast_S1x1x63_S32x16384x63_0_1_2
      (broadcastInDim S1x1x63 ![2] bcast_S63_S1x1x63_2 b) (ix3 t l o) = b (ix1 o) := by
    refine (broadcastInDim_apply _ _ _ (ix3 t l o) (ix3 (0 : Fin 1) (0 : Fin 1) o) (fun a => ?_)).trans ?_
    · match a with
      | ⟨0, _⟩ => rfl
      | ⟨1, _⟩ => rfl
      | ⟨2, _⟩ => rfl
    · refine broadcastInDim_apply _ _ _ (ix3 (0 : Fin 1) (0 : Fin 1) o) (ix1 o) (fun a => ?_)
      match a with
      | ⟨0, _⟩ => rfl
  have hz : broadcastInDim S32x16384x63 ![] bcast_S_S32x16384x63 (constant (F := Ideal) S_ .f32 0x00000000#32) (ix3 t l o) = 0 :=
    Ideal.ofBits_zero_f32
  rw [hb, hz]

/-- The hidden units of the windows of the padded input are the specification's. -/
theorem hiddenRef_apply (x : (⟨3, ![32, 16, 16384]⟩ : Shape).Idx → EReal) (wt : (⟨2, ![63, 136]⟩ : Shape).Idx → EReal)
    (b : (⟨1, ![63]⟩ : Shape).Idx → EReal) (t : Fin 32) (l : Fin 16384) (o : Fin 63) :
    hiddenRef (F := Ideal) (pointRef (F := Ideal) (windowRef (F := Ideal) (padRef (F := Ideal) x) (idxTable (F := Ideal)))) wt b (ix3 t l o)
      = Cert.LorentzLayer.hidden x wt b t l o := by
  rw [hiddenRef_read, Fin.sum_univ_succ]
  unfold Cert.LorentzLayer.hidden timeIn
  have h0 : pointRef (F := Ideal) (windowRef (F := Ideal) (padRef (F := Ideal) x) (idxTable (F := Ideal))) (ix3 t l (0 : Fin 136))
      = Ideal.sqrt (one + ∑ k : Fin 135, tap x t l k * tap x t l k) := by
    rw [pointRef_zero, timeRef_apply]
    simp only [windowRef_apply]
  have hs : ∀ k : Fin 135, pointRef (F := Ideal) (windowRef (F := Ideal) (padRef (F := Ideal) x) (idxTable (F := Ideal))) (ix3 t l k.succ)
      = tap x t l k := fun k => (pointRef_succ _ t l k).trans (windowRef_apply x t l k)
  rw [h0]
  simp only [hs]
  rfl

/-! ## The output -/

/-- The output read at an index, for any hidden units: the time coordinate in row 0, unit r - 1 in row r. -/
theorem outRef_read (h : (⟨3, ![32, 16384, 63]⟩ : Shape).Idx → EReal) (t : Fin 32) (r : Fin 64) (l : Fin 16384) :
    outRef (F := Ideal) h (ix3 t r l)
      = if hr : r.val = 0 then Ideal.sqrt (one + ∑ o : Fin 63, h (ix3 t l o) * h (ix3 t l o))
        else h (ix3 t l (⟨r.val - 1, by omega⟩ : Fin 63)) := by
  have hr64 := r.isLt
  unfold outRef
  refine (transpose_apply _ _ _ (ix3 t r l) (ix3 t l r) (fun b => ?_)).trans ?_
  · match b with
    | ⟨0, _⟩ => rfl
    | ⟨1, _⟩ => rfl
    | ⟨2, _⟩ => rfl
  by_cases hr : r.val = 0
  · rw [dif_pos hr]
    refine (concatenate_pair_apply_left (t := S32x16384x64) (s₁ := S32x16384x1) (s₂ := S32x16384x63) 2 _ _ _
      (ix3 t l r) rfl (ix3 t l (0 : Fin 1)) (fun b => ?_)).trans (time_read h _ (by decide) _ _ _ t l)
    match b with
    | ⟨0, _⟩ => rfl
    | ⟨1, _⟩ => rfl
    | ⟨2, _⟩ => exact hr.symm
  · rw [dif_neg hr]
    refine concatenate_pair_apply_right (t := S32x16384x64) (s₁ := S32x16384x1) (s₂ := S32x16384x63) 2 _ _ _
      (ix3 t l r) rfl rfl (ix3 t l (⟨r.val - 1, by omega⟩ : Fin 63)) (fun b hb => ?_) ?_
    · match b with
      | ⟨0, _⟩ => rfl
      | ⟨1, _⟩ => rfl
      | ⟨2, _⟩ => exact absurd rfl hb
    · show r.val - 1 + 1 = r.val
      omega

/-- The whole composition read at an index is the specification's layer. -/
theorem outRef_apply (x : (⟨3, ![32, 16, 16384]⟩ : Shape).Idx → EReal) (wt : (⟨2, ![63, 136]⟩ : Shape).Idx → EReal)
    (b : (⟨1, ![63]⟩ : Shape).Idx → EReal) (t : Fin 32) (r : Fin 64) (l : Fin 16384) :
    outRef (F := Ideal) (hiddenRef (F := Ideal) (pointRef (F := Ideal) (windowRef (F := Ideal) (padRef (F := Ideal) x) (idxTable (F := Ideal)))) wt b)
      (ix3 t r l) = layer x wt b t r l := by
  rw [outRef_read]
  unfold layer timeOut
  simp only [hiddenRef_apply]

end Cert.ReferenceIdeal.RefValue

end
-- ==== Proof.RefValue.lean ====
/-
  The reference program's run, read against the specification: every weakly fair execution of @main terminates with
  the result buffer holding the layer `Cert.LorentzLayer.G` of the three arguments' launch contents, index by index
  over the extended reals, and the three arguments unchanged.
-/
import proofs.«135288_j14302241096029_1_alg».proof.Proof.RefHidden

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LorentzLayer

/-- The five functions nested are the specification's layer, as arrays. -/
theorem out_eq (x : (⟨3, ![32, 16, 16384]⟩ : Shape).Idx → EReal) (wt : (⟨2, ![63, 136]⟩ : Shape).Idx → EReal)
    (b : (⟨1, ![63]⟩ : Shape).Idx → EReal) :
    outRef (F := Ideal) (hiddenRef (F := Ideal) (pointRef (F := Ideal) (windowRef (F := Ideal) (padRef (F := Ideal) x) (idxTable (F := Ideal)))) wt b)
      = G x wt b := by
  funext i
  obtain ⟨t, r, l, rfl⟩ : ∃ (t : Fin 32) (r : Fin 64) (l : Fin 16384), i = ix3 t r l := ⟨i 0, i 1, i 2, eq_ix3 i⟩
  exact outRef_apply x wt b t r l

/-- On every device, from any memory with zero counters: every weakly fair execution of @main terminates with the
    result at the specification's layer of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = Cert.LorentzLayer.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v42).trans ((after_ops_v42 (launchContents m c)).trans
        (out_eq (m ((c.tc : Thread nD τ).loc main_arg0)) (m ((c.tc : Thread nD τ).loc main_arg1)) (m ((c.tc : Thread nD τ).loc main_arg2)))),
      (h c main_arg0).trans (after_ops_arg0 (launchContents m c)),
      (h c main_arg1).trans (after_ops_arg1 (launchContents m c)),
      (h c main_arg2).trans (after_ops_arg2 (launchContents m c))⟩)
    (run_raw m ρ)

end Cert.ReferenceIdeal.RefValue

end
-- ==== Proof.lean ====
/-
  The certificate of one layer of a hyperbolic ("Lorentz model") network: a one-dimensional convolution followed by a fully
  connected layer. Per batch `t` and position `l` the layer looks at a window of nine positions of the fifteen space
  coordinates (zero-padded by four on either side) — 135 numbers `tap_k` —, forms the window's time coordinate
  `sqrt (1 + sum_k tap_k ^ 2)`, maps the resulting point by the weights and the bias into 63 hidden units clipped below at
  zero, and returns those under their own time coordinate `sqrt (1 + sum_o hidden_o ^ 2)`: `Proof/Spec.lean` states this as
  one function `G` of the three argument arrays, index by index, over the extended reals.

  The kernel computes it one batch per grid point, entirely on shifted slices: the squared norm per padded column first,
  then a running total over the nine taps; the nine shifted copies of the padded rows stacked for one matrix product
  against the weights' last 135 columns, the first column handled apart. The reference gathers the windows by an index
  table, flattens each to 135 entries, sums their squares in one go and contracts all 136 entries at once. Read at an
  index the two agree up to the grouping of one sum (nine sums of fifteen against one of 135), the order of the factors in
  each product, and one term split off a sum of 136 — commutativity and associativity only, so the equality holds on all of
  the extended reals and the precondition (finite inputs) is never used.

  Kernel side: `KernelPad` (the padded rows), `KernelTime` (squared norms, running total, the stack), `KernelWindow` (these
  are the specification's window), `KernelHidden` (the body's block is the layer), `KernelValue` (the 32 blocks tile the
  result). Reference side: `RefRun` (the run of the 54 host operations, in five stretches), `RefStages` … `RefValue` (each
  stretch read at an index; the result is `G`). The kernel is its own idealization (no rewrite), so `preserves` is trivial.
-/
import proofs.«135288_j14302241096029_1_alg».proof.Defs
import proofs.«135288_j14302241096029_1_alg».proof.Proof.Gen.Kernel
import proofs.«135288_j14302241096029_1_alg».proof.Proof.Gen.Kernel.Skeleton
import proofs.«135288_j14302241096029_1_alg».proof.Proof.Gen.Kernel.Launch
import proofs.«135288_j14302241096029_1_alg».proof.Proof.Gen.Kernel.Points
import proofs.«135288_j14302241096029_1_alg».proof.Proof.Gen.Kernel.Frame
import proofs.«135288_j14302241096029_1_alg».proof.Proof.Gen.KernelIdeal
import proofs.«135288_j14302241096029_1_alg».proof.Proof.Gen.KernelIdeal.Skeleton
import proofs.«135288_j14302241096029_1_alg».proof.Proof.Gen.KernelIdeal.Launch
import proofs.«135288_j14302241096029_1_alg».proof.Proof.Gen.KernelIdeal.Points
import proofs.«135288_j14302241096029_1_alg».proof.Proof.Gen.KernelIdeal.Frame
import proofs.«135288_j14302241096029_1_alg».proof.Proof.Gen.ReferenceIdeal
import proofs.«135288_j14302241096029_1_alg».proof.Proof.Gen.Pre_finite_inputs
import proofs.«135288_j14302241096029_1_alg».proof.Proof.Gen.KernelIdeal.Value
import proofs.«135288_j14302241096029_1_alg».proof.Proof.KernelValue
import proofs.«135288_j14302241096029_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.RefValue.run m ρ)

/-- Both programs, from memories agreeing on the arguments, end with the layer's array `G` of those arguments. -/
theorem algebraic : Cert.algebraic_KernelIdeal_ReferenceIdeal := by
  intro m ρ m' ρ' _ hagree
  refine ⟨fun c => Cert.LorentzLayer.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
